-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x81920 : Shape := ⟨2, ![1024, 81920]⟩
abbrev S256x40960 : Shape := ⟨2, ![256, 40960]⟩
abbrev S64x256 : Shape := ⟨2, ![64, 256]⟩
abbrev S8x128 : Shape := ⟨2, ![8, 128]⟩
abbrev S1x8 : Shape := ⟨2, ![1, 8]⟩
abbrev S_ : Shape := ⟨0, ![]⟩

class Facts : Prop where
  bcast_S_S1024x81920 : S_.BroadcastsInDim S1024x81920 (![] : Fin 0 → Fin S1024x81920.rank)
  reducesTo_S1024x81920_S_d0_1 : S1024x81920.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S64x256 : S_.BroadcastsInDim S64x256 (![] : Fin 0 → Fin S64x256.rank)
  reducesTo_S64x256_S_d0_1 : S64x256.ReducesTo [0, 1] S_
  bcast_S_S8x128 : S_.BroadcastsInDim S8x128 (![] : Fin 0 → Fin S8x128.rank)
  reducesTo_S8x128_S_d0_1 : S8x128.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  main_v23

def fn {F : FTy → Type} [FloatOps F] (main_arg0 : FVec F S1024x81920 .f32) (main_arg1 : FVec F S256x40960 .f32) (main_arg2 : FVec F S64x256 .f32) (main_arg3 : FVec F S8x128 .f32) (main_arg4 : FVec F S1x8 .f32) : IVec S_ 1 :=
  let main_v0 : FVec F S1024x81920 .f32 := Host.absf main_arg0
  let main_cst : FVec F S_ .f32 := constant S_ .f32 0x7F800000#32
  let main_v1 : FVec F S1024x81920 .f32 := broadcastInDim S1024x81920 ![] bcast_S_S1024x81920 main_cst
  let main_v2 : IVec S1024x81920 1 := cmpf .olt main_v0 main_v1
  let main_c : IVec S_ 1 := constantI S_ 1 1#1
  let main_v3 : IVec S_ 1 := (fun x v => Host.reduce IntOp.andi x v reducesTo_S1024x81920_S_d0_1 h_S_) main_v2 main_c
  let main_v4 : FVec F S256x40960 .f32 := Host.absf main_arg1
  let main_cst_0 : FVec F S_ .f32 := constant S_ .f32 0x7F800000#32
  let main_v5 : FVec F S256x40960 .f32 := broadcastInDim S256x40960 ![] bcast_S_S256x40960 main_cst_0
  let main_v6 : IVec S256x40960 1 := cmpf .olt main_v4 main_v5
  let main_c_1 : IVec S_ 1 := constantI S_ 1 1#1
  let main_v7 : IVec S_ 1 := (fun x v => Host.reduce IntOp.andi x v reducesTo_S256x40960_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_v13 main_v16
-- ==== Kernel.lean ====
abbrev S1024x81920 : Shape := ⟨2, ![1024, 81920]⟩
abbrev S256x40960 : Shape := ⟨2, ![256, 40960]⟩
abbrev S64x256 : Shape := ⟨2, ![64, 256]⟩
abbrev S8x128 : Shape := ⟨2, ![8, 128]⟩
abbrev S1x8 : Shape := ⟨2, ![1, 8]⟩
abbrev S1024x1 : Shape := ⟨2, ![1024, 1]⟩
abbrev S1024x4096 : Shape := ⟨2, ![1024, 4096]⟩
abbrev S256x4096 : Shape := ⟨2, ![256, 4096]⟩
abbrev S1024x256 : Shape := ⟨2, ![1024, 256]⟩
abbrev S1024 : Shape := ⟨1, ![1024]⟩
abbrev S1024x64 : Shape := ⟨2, ![1024, 64]⟩
abbrev S1024x128 : Shape := ⟨2, ![1024, 128]⟩
abbrev S1024x8 : Shape := ⟨2, ![1024, 8]⟩

abbrev nBuf : Space → Nat
  | .hbm => 6
  | .vmem => 10
  | .smem => 0
  | _ => 0

abbrev bufTy : (tb : Table) → Fin (tcTables nBuf tb) → BufTy
  | .hbm, ⟨0, _⟩ => ⟨S1024x81920, .f32⟩
  | .hbm, ⟨1, _⟩ => ⟨S256x40960, .f32⟩
  | .hbm, ⟨2, _⟩ => ⟨S64x256, .f32⟩
  | .hbm, ⟨3, _⟩ => ⟨S8x128, .f32⟩
  | .hbm, ⟨4, _⟩ => ⟨S1x8, .f32⟩
  | .hbm, ⟨5, _⟩ => ⟨S1024x1, .f32⟩
  | .local _ .vmem, ⟨0, _⟩ => ⟨S1024x4096, .f32⟩
  | .local _ .vmem, ⟨1, _⟩ => ⟨S1024x4096, .f32⟩
  | .local _ .vmem, ⟨2, _⟩ => ⟨S256x4096, .f32⟩
  | .local _ .vmem, ⟨3, _⟩ => ⟨S256x4096, .f32⟩
  | .local _ .vmem, ⟨4, _⟩ => ⟨S64x256, .f32⟩
  | .local _ .vmem, ⟨5, _⟩ => ⟨S8x128, .f32⟩
  | .local _ .vmem, ⟨6, _⟩ => ⟨S1x8, .f32⟩
  | .local _ .vmem, ⟨7, _⟩ => ⟨S1024x1, .f32⟩
  | .local _ .vmem, ⟨8, _⟩ => ⟨S1024x256, .f32⟩
  | .local _ .vmem, ⟨9, _⟩ => ⟨S1024x256, .f32⟩
  | _, _ => ⟨S1024x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond4 (i : grid0.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c10_i32 : BitVec 32 := 10#32
  let v10 : BitVec 32 := Scalar.muli v9 c10_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![c0_i32_10.toNat, v28.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x4096_S1024x4096_0_0 : ∀ a, (![0, 0] : Fin 2 → Nat) a + S1024x4096.size a ≤ S1024x4096.size a
  h_S1024x4096 : 0 < S1024x4096.numel
  inb_S256x4096_S256x4096_0_0 : ∀ a, (![0, 0] : Fin 2 → Nat) a + S256x4096.size a ≤ S256x4096.size a
  h_S256x4096 : 0 < S256x4096.numel
  reduces_S1024x256_S1024 : S1024x256.Reduces [1] S1024
  shapeCasts_S1024_S1024x1 : S1024.ShapeCasts S1024x1
  broadcasts_S1024x1_S1024x256 : S1024x1.Broadcasts S1024x256
  inb_S64x256_S64x256_0_0 : ∀ a, (![0, 0] : Fin 2 → Nat) a + S64x256.size a ≤ S64x256.size a
  h_S64x256 : 0 < S64x256.numel
  reduces_S1024x64_S1024 : S1024x64.Reduces [1] S1024
  broadcasts_S1024x1_S1024x64 : S1024x1.Broadcasts S1024x64
  concatenates_S1024x64_S1024x64_S1024x128_d1 : Shape.Concatenates [S1024x64, S1024x64] S1024x128 1
  inb_S8x128_S8x128_0_0 : ∀ a, (![0, 0] : Fin 2 → Nat) a + S8x128.size a ≤ S8x128.size a
  h_S8x128 : 0 < S8x128.numel
  reduces_S1024x8_S1024 : S1024x8.Reduces [1] S1024
  broadcasts_S1024x1_S1024x8 : S1024x1.Broadcasts S1024x8
  inb_S1x8_S1x8_0_0 : ∀ a, (![0, 0] : Fin 2 → Nat) a + S1x8.size a ≤ S1x8.size a
  h_S1x8 : 0 < S1x8.numel
  inb_S1024x1_S1024x1_0_0 : ∀ a, (![0, 0] : Fin 2 → Nat) a + S1024x1.size a ≤ S1024x1.size a
  h_S1024x1 : 0 < S1024x1.numel
  dot_S1024x4096_S256x4096_S1024x256_1_1_0_0_n_n_wf : DotDims.WF S1024x4096 S256x4096 S1024x256 [1] [1] [0] [0] [] []
  dot_S1024x256_S64x256_S1024x64_1_1_0_0_n_n_wf : DotDims.WF S1024x256 S64x256 S1024x64 [1] [1] [0] [0] [] []
  dot_S1024x128_S8x128_S1024x8_1_1_0_0_n_n_wf : DotDims.WF S1024x128 S8x128 S1024x8 [1] [1] [0] [0] [] []
  dot_S1024x8_S1x8_S1024x1_1_1_0_0_n_n_wf : DotDims.WF S1024x8 S1x8 S1024x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x81920.size a
  hwx0_0 : ∀ i : grid0.Coords, EltTy.bits .f32 = 32 ∨ (Rect.block (s := S1024x81920) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x40960.size a
  hwx0_1 : ∀ i : grid0.Coords, EltTy.bits .f32 = 32 ∨ (Rect.block (s := S256x40960) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .f32 = 32 ∨ (Rect.block (s := S1024x1) S1024x1.size (cc0_transform_5 i) (hinb0_5 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S1024x256_S64x256_S1024x64_1_1_0_0_n_n : DotDims S1024x256 S64x256 S1024x64 where
  lhsContracting := [1]
  rhsContracting := [1]
  lhsNonContracting := [0]
  rhsNonContracting := [0]
  lhsBatch := []
  rhsBatch := []
  wf := dot_S1024x256_S64x256_S1024x64_1_1_0_0_n_n_wf
def dot_S1024x128_S8x128_S1024x8_1_1_0_0_n_n : DotDims S1024x128 S8x128 S1024x8 where
  lhsContracting := [1]
  rhsContracting := [1]
  lhsNonContracting := [0]
  rhsNonContracting := [0]
  lhsBatch := []
  rhsBatch := []
  wf := dot_S1024x128_S8x128_S1024x8_1_1_0_0_n_n_wf
def dot_S1024x8_S1x8_S1024x1_1_1_0_0_n_n : DotDims S1024x8 S1x8 S1024x1 where
  lhsContracting := [1]
  rhsContracting := [1]
  lhsNonContracting := [0]
  rhsNonContracting := [0]
  lhsBatch := []
  rhsBatch := []
  wf := dot_S1024x8_S1x8_S1024x1_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S1024x81920 : Shape := ⟨2, ![1024, 81920]⟩
abbrev S256x40960 : Shape := ⟨2, ![256, 40960]⟩
abbrev S64x256 : Shape := ⟨2, ![64, 256]⟩
abbrev S8x128 : Shape := ⟨2, ![8, 128]⟩
abbrev S1x8 : Shape := ⟨2, ![1, 8]⟩
abbrev S1024x40960 : Shape := ⟨2, ![1024, 40960]⟩
abbrev S40960x256 : Shape := ⟨2, ![40960, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S256x64 : Shape := ⟨2, ![256, 64]⟩
abbrev S1024x64 : Shape := ⟨2, ![1024, 64]⟩
abbrev S1024x128 : Shape := ⟨2, ![1024, 128]⟩
abbrev S128x8 : Shape := ⟨2, ![128, 8]⟩
abbrev S1024x8 : Shape := ⟨2, ![1024, 8]⟩
abbrev S8x1 : Shape := ⟨2, ![8, 1]⟩

abbrev nBuf : Space → Nat
  | .hbm => 140
  | .vmem => 0
  | .smem => 0
  | _ => 0

abbrev hbmTy0_0 (i : Nat) : BufTy := match i % 128 with
  | 0 => ⟨S1024x81920, .f32⟩
  | 1 => ⟨S256x40960, .f32⟩
  | 2 => ⟨S64x256, .f32⟩
  | 3 => ⟨S8x128, .f32⟩
  | 4 => ⟨S1x8, .f32⟩
  | 5 => ⟨S1024x40960, .f32⟩
  | 6 => ⟨S1024x40960, .f32⟩
  | 7 => ⟨S40960x256, .f32⟩
  | 8 => ⟨S1024x256, .f32⟩
  | 9 => ⟨S_, .f32⟩
  | 10 => ⟨S1024, .f32⟩
  | 11 => ⟨S_, .f32⟩
  | 12 => ⟨S1024, .f32⟩
  | 13 => ⟨S1024, .f32⟩
  | 14 => ⟨S1024x1, .f32⟩
  | 15 => ⟨S1024x256, .f32⟩
  | 16 => ⟨S1024x256, .f32⟩
  | 17 => ⟨S1024x256, .f32⟩
  | 18 => ⟨S_, .f32⟩
  | 19 => ⟨S1024, .f32⟩
  | 20 => ⟨S_, .f32⟩
  | 21 => ⟨S1024, .f32⟩
  | 22 => ⟨S1024, .f32⟩
  | 23 => ⟨S1024, .f32⟩
  | 24 => ⟨S1024x256, .f32⟩
  | 25 => ⟨S1024x256, .f32⟩
  | 26 => ⟨S1024x1, .f32⟩
  | 27 => ⟨S1024x256, .f32⟩
  | 28 => ⟨S1024x256, .f32⟩
  | 29 => ⟨S_, .f32⟩
  | 30 => ⟨S1024x256, .f32⟩
  | 31 => ⟨S1024x256, .f32⟩
  | 32 => ⟨S1024x256, .f32⟩
  | 33 => ⟨S40960x256, .f32⟩
  | 34 => ⟨S1024x256, .f32⟩
  | 35 => ⟨S_, .f32⟩
  | 36 => ⟨S1024, .f32⟩
  | 37 => ⟨S_, .f32⟩
  | 38 => ⟨S1024, .f32⟩
  | 39 => ⟨S1024, .f32⟩
  | 40 => ⟨S1024x1, .f32⟩
  | 41 => ⟨S1024x256, .f32⟩
  | 42 => ⟨S1024x256, .f32⟩
  | 43 => ⟨S1024x256, .f32⟩
  | 44 => ⟨S_, .f32⟩
  | 45 => ⟨S1024, .f32⟩
  | 46 => ⟨S_, .f32⟩
  | 47 => ⟨S1024, .f32⟩
  | 48 => ⟨S1024, .f32⟩
  | 49 => ⟨S1024, .f32⟩
  | 50 => ⟨S1024x256, .f32⟩
  | 51 => ⟨S1024x256, .f32⟩
  | 52 => ⟨S1024x1, .f32⟩
  | 53 => ⟨S1024x256, .f32⟩
  | 54 => ⟨S1024x256, .f32⟩
  | 55 => ⟨S_, .f32⟩
  | 56 => ⟨S1024x256, .f32⟩
  | 57 => ⟨S1024x256, .f32⟩
  | 58 => ⟨S1024x256, .f32⟩
  | 59 => ⟨S256x64, .f32⟩
  | 60 => ⟨S1024x64, .f32⟩
  | 61 => ⟨S_, .f32⟩
  | 62 => ⟨S1024, .f32⟩
  | 63 => ⟨S_, .f32⟩
  | 64 => ⟨S1024, .f32⟩
  | 65 => ⟨S1024, .f32⟩
  | 66 => ⟨S1024x1, .f32⟩
  | 67 => ⟨S1024x64, .f32⟩
  | 68 => ⟨S1024x64, .f32⟩
  | 69 => ⟨S1024x64, .f32⟩
  | 70 => ⟨S_, .f32⟩
  | 71 => ⟨S1024, .f32⟩
  | 72 => ⟨S_, .f32⟩
  | 73 => ⟨S1024, .f32⟩
  | 74 => ⟨S1024, .f32⟩
  | 75 => ⟨S1024, .f32⟩
  | 76 => ⟨S1024x64, .f32⟩
  | 77 => ⟨S1024x64, .f32⟩
  | 78 => ⟨S1024x1, .f32⟩
  | 79 => ⟨S1024x64, .f32⟩
  | 80 => ⟨S1024x64, .f32⟩
  | 81 => ⟨S_, .f32⟩
  | 82 => ⟨S1024x64, .f32⟩
  | 83 => ⟨S1024x64, .f32⟩
  | 84 => ⟨S1024x64, .f32⟩
  | 85 => ⟨S256x64, .f32⟩
  | 86 => ⟨S1024x64, .f32⟩
  | 87 => ⟨S_, .f32⟩
  | 88 => ⟨S1024, .f32⟩
  | 89 => ⟨S_, .f32⟩
  | 90 => ⟨S1024, .f32⟩
  | 91 => ⟨S1024, .f32⟩
  | 92 => ⟨S1024x1, .f32⟩
  | 93 => ⟨S1024x64, .f32⟩
  | 94 => ⟨S1024x64, .f32⟩
  | 95 => ⟨S1024x64, .f32⟩
  | 96 => ⟨S_, .f32⟩
  | 97 => ⟨S1024, .f32⟩
  | 98 => ⟨S_, .f32⟩
  | 99 => ⟨S1024, .f32⟩
  | 100 => ⟨S1024, .f32⟩
  | 101 => ⟨S1024, .f32⟩
  | 102 => ⟨S1024x64, .f32⟩
  | 103 => ⟨S1024x64, .f32⟩
  | 104 => ⟨S1024x1, .f32⟩
  | 105 => ⟨S1024x64, .f32⟩
  | 106 => ⟨S1024x64, .f32⟩
  | 107 => ⟨S_, .f32⟩
  | 108 => ⟨S1024x64, .f32⟩
  | 109 => ⟨S1024x64, .f32⟩
  | 110 => ⟨S1024x64, .f32⟩
  | 111 => ⟨S1024x128, .f32⟩
  | 112 => ⟨S128x8, .f32⟩
  | 113 => ⟨S1024x8, .f32⟩
  | 114 => ⟨S_, .f32⟩
  | 115 => ⟨S1024, .f32⟩
  | 116 => ⟨S_, .f32⟩
  | 117 => ⟨S1024, .f32⟩
  | 118 => ⟨S1024, .f32⟩
  | 119 => ⟨S1024x1, .f32⟩
  | 120 => ⟨S1024x8, .f32⟩
  | 121 => ⟨S1024x8, .f32⟩
  | 122 => ⟨S1024x8, .f32⟩
  | 123 => ⟨S_, .f32⟩
  | 124 => ⟨S1024, .f32⟩
  | 125 => ⟨S_, .f32⟩
  | 126 => ⟨S1024, .f32⟩
  | 127 => ⟨S1024, .f32⟩
  | _ => ⟨S1024x81920, .f32⟩

abbrev hbmTy0_1 (i : Nat) : BufTy := match i % 128 with
  | 0 => ⟨S1024, .f32⟩
  | 1 => ⟨S1024x8, .f32⟩
  | 2 => ⟨S1024x8, .f32⟩
  | 3 => ⟨S1024x1, .f32⟩
  | 4 => ⟨S1024x8, .f32⟩
  | 5 => ⟨S1024x8, .f32⟩
  | 6 => ⟨S_, .f32⟩
  | 7 => ⟨S1024x8, .f32⟩
  | 8 => ⟨S1024x8, .f32⟩
  | 9 => ⟨S1024x8, .f32⟩
  | 10 => ⟨S8x1, .f32⟩
  | 11 => ⟨S1024x1, .f32⟩
  | _ => ⟨S1024x81920, .f32⟩

abbrev hbmTy (i : Nat) : BufTy := match i / 128 with
  | 0 => hbmTy0_0 i
  | 1 => hbmTy0_1 i
  | _ => ⟨S1024x81920, .f32⟩

abbrev bufTy : (tb : Table) → Fin (tcTables nBuf tb) → BufTy
  | .hbm, ⟨i, _⟩ => hbmTy i
  | _, _ => ⟨S1024x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_cst_20 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_23 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]

class Facts₀ : Prop where
  slices_S1024x81920_S1024x40960_0_0 : S1024x81920.Slices ![0, 0] S1024x40960
  slices_S1024x81920_S1024x40960_0_40960 : S1024x81920.Slices ![0, 40960] S1024x40960
  transposes_S256x40960_S40960x256_1_0 : S256x40960.Transposes [1, 0] S40960x256
  reducesTo_S1024x256_S1024_d1 : S1024x256.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  transposes_S64x256_S256x64_1_0 : S64x256.Transposes [1, 0] S256x64
  reducesTo_S1024x64_S1024_d1 : S1024x64.ReducesTo [1] S1024
  bcast_S1024x1_S1024x64_0_1 : S1024x1.BroadcastsInDim S1024x64 (![0, 1] : Fin 2 → Fin S1024x64.rank)
  bcast_S_S1024x64 : S_.BroadcastsInDim S1024x64 (![] : Fin 0 → Fin S1024x64.rank)
  concatenates_S1024x64_S1024x64_S1024x128_d1 : Shape.Concatenates [S1024x64, S1024x64] S1024x128 1
  transposes_S8x128_S128x8_1_0 : S8x128.Transposes [1, 0] S128x8
  reducesTo_S1024x8_S1024_d1 : S1024x8.ReducesTo [1] S1024
  bcast_S1024x1_S1024x8_0_1 : S1024x1.BroadcastsInDim S1024x8 (![0, 1] : Fin 2 → Fin S1024x8.rank)
  bcast_S_S1024x8 : S_.BroadcastsInDim S1024x8 (![] : Fin 0 → Fin S1024x8.rank)
  transposes_S1x8_S8x1_1_0 : S1x8.Transposes [1, 0] S8x1
  dot_S1024x40960_S40960x256_S1024x256_1_0_0_1_n_n_wf : DotDims.WF S1024x40960 S40960x256 S1024x256 [1] [0] [0] [1] [] []
  dot_S1024x256_S256x64_S1024x64_1_0_0_1_n_n_wf : DotDims.WF S1024x256 S256x64 S1024x64 [1] [0] [0] [1] [] []
  dot_S1024x128_S128x8_S1024x8_1_0_0_1_n_n_wf : DotDims.WF S1024x128 S128x8 S1024x8 [1] [0] [0] [1] [] []
  dot_S1024x8_S8x1_S1024x1_1_0_0_1_n_n_wf : DotDims.WF S1024x8 S8x1 S1024x1 [1] [0] [0] [1] [] []

variable [Facts₀]

def dot_S1024x40960_S40960x256_S1024x256_1_0_0_1_n_n : DotDims S1024x40960 S40960x256 S1024x256 where
  lhsContracting := [1]
  rhsContracting := [0]
  lhsNonContracting := [0]
  rhsNonContracting := [1]
  lhsBatch := []
  rhsBatch := []
  wf := dot_S1024x40960_S40960x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.Imports.lean ====
/- The generated value leg of the idealized kernel and the generated run of the idealized reference, gathered in one place. -/
import proofs.«167364_g6923487281305_cont_9to1_m_76_12_alg».proof.Defs
import proofs.«167364_g6923487281305_cont_9to1_m_76_12_alg».proof.Proof.Gen.Kernel.Frame
import proofs.«167364_g6923487281305_cont_9to1_m_76_12_alg».proof.Proof.Gen.KernelIdeal.Frame
import proofs.«167364_g6923487281305_cont_9to1_m_76_12_alg».proof.Proof.Gen.KernelIdeal.Value
import proofs.«167364_g6923487281305_cont_9to1_m_76_12_alg».proof.Proof.Gen.ReferenceIdeal.Run
-- ==== Proof.KPieces.lean ====
import proofs.«167364_g6923487281305_cont_9to1_m_76_12_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## What each case of the body leaves behind, as values

At every grid point the body multiplies the point's block of the first argument by the transpose of the point's block of
the second (`k0_pay8`).  At the first point it first clears both accumulators; at an even point it adds the product
to the first accumulator, at an odd point to the second; at the last point it then computes the rest of the network from
the two accumulators and stores the result. -/

/-- The first point: the first accumulator is cleared and then receives the product. -/
theorem acc0_first (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : cond0_1 i) (hc2 : ¬cond0_2 i) (hc3 : ¬cond0_3 i)
    (x0 : Vec F S1024x4096 .f32) (x1 : Vec F S256x4096 .f32) (x2 : Vec F S64x256 .f32) (x3 : Vec F S8x128 .f32) (x4 : Vec F S1x8 .f32) :
    sout0_A_0 c i arg1 harg1 arg2 harg2 arg3 harg3 arg4 harg4 arg5 harg5 arg6 harg6 arg7 harg7 arg8 harg8 hc0 hc1 hc2 hc3 x0 x1 x2 x3 x4 = k0_pay9 x0 x1 (k0_pay6 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 hc2 hc3 x0 x1 x2 x3 x4)]
  unfold kernelRun0_A
  dsimp only
  sl_unfold_words
  rw [View.canon_cons_unit_zero (S := S1024x256) hz, View.readCov_unit_zero (S := S1024x256) _ hz]
  simp only [View.readAt_eq_ld, harg1.read_unread, harg2.read_unread, harg3.read_unread, harg4.read_unread, harg5.read_unread, harg7.read_unread, harg8.read_unread,
    View.ld_unit_zero (S := S1024x4096) hz, View.ld_unit_zero (S := S256x4096) hz, View.ld_unit_zero (S := S1024x256) hz, View.ld_unit_zero (S := S64x256) hz, View.ld_unit_zero (S := S8x128) hz, View.ld_unit_zero (S := S1x8) hz]

/-- The first point: the second accumulator is cleared. -/
theorem acc1_first (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : cond0_1 i) (hc2 : ¬cond0_2 i) (hc3 : ¬cond0_3 i)
    (x0 : Vec F S1024x4096 .f32) (x1 : Vec F S256x4096 .f32) (x2 : Vec F S64x256 .f32) (x3 : Vec F S8x128 .f32) (x4 : Vec F S1x8 .f32) :
    sout0_A_1 c i arg1 harg1 arg2 harg2 arg3 harg3 arg4 harg4 arg5 harg5 arg6 harg6 arg7 harg7 arg8 harg8 hc0 hc1 hc2 hc3 x0 x1 x2 x3 x4 = k0_pay7 (F := F) := by
  unfold sout0_A_1
  rw [View.read_writes_eq_canon _ _ _ (scover0_A_1 c i arg1 harg1 arg2 harg2 arg3 harg3 arg4 harg4 arg5 harg5 arg6 harg6 arg7 harg7 arg8 harg8 hc0 hc1 hc2 hc3 x0 x1 x2 x3 x4)]
  unfold kernelRun0_A
  dsimp only
  rw [View.canon_unit_zero hz]

/-- A later even point: the first accumulator receives the product, -/
theorem acc0_even (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i) (hc2 : ¬cond0_2 i) (hc3 : ¬cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    sout0_C_0 c i arg1 harg1 arg2 harg2 arg3 harg3 arg4 harg4 arg5 harg5 arg6 harg6 arg7 harg7 arg8 harg8 hc0 hc1 hc2 hc3 x0 x1 x2 x3 x4 xs0 xs1 = k0_pay9 x0 x1 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 hc2 hc3 x0 x1 x2 x3 x4 xs0 xs1)]
  unfold kernelRun0_C
  dsimp only
  rw [View.canon_unit_zero hz]
  simp only [View.readAt_eq_ld, harg1.read_unread, harg2.read_unread, harg3.read_unread, harg4.read_unread, harg5.read_unread, harg7.read_unread, harg8.read_unread,
    View.ld_unit_zero (S := S1024x4096) hz, View.ld_unit_zero (S := S256x4096) hz, View.ld_unit_zero (S := S1024x256) hz, View.ld_unit_zero (S := S64x256) hz, View.ld_unit_zero (S := S8x128) hz, View.ld_unit_zero (S := S1x8) hz]

/-- and the second is untouched. -/
theorem acc1_even (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i) (hc2 : ¬cond0_2 i) (hc3 : ¬cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    sout0_C_1 c i arg1 harg1 arg2 harg2 arg3 harg3 arg4 harg4 arg5 harg5 arg6 harg6 arg7 harg7 arg8 harg8 hc0 hc1 hc2 hc3 x0 x1 x2 x3 x4 xs0 xs1 = xs1 := rfl

/-- An odd point before the last: the first accumulator is untouched, -/
theorem acc0_odd (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i) (hc2 : cond0_2 i) (hc3 : ¬cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    sout0_B_0 c i arg1 harg1 arg2 harg2 arg3 harg3 arg4 harg4 arg5 harg5 arg6 harg6 arg7 harg7 arg8 harg8 hc0 hc1 hc2 hc3 x0 x1 x2 x3 x4 xs0 xs1 = xs0 := rfl

/-- and the second receives the product. -/
theorem acc1_odd (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i) (hc2 : cond0_2 i) (hc3 : ¬cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    sout0_B_1 c i arg1 harg1 arg2 harg2 arg3 harg3 arg4 harg4 arg5 harg5 arg6 harg6 arg7 harg7 arg8 harg8 hc0 hc1 hc2 hc3 x0 x1 x2 x3 x4 xs0 xs1 = k0_pay10 x0 x1 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 hc2 hc3 x0 x1 x2 x3 x4 xs0 xs1)]
  unfold kernelRun0_B
  dsimp only
  rw [View.canon_unit_zero hz]
  simp only [View.readAt_eq_ld, harg1.read_unread, harg2.read_unread, harg3.read_unread, harg4.read_unread, harg5.read_unread, harg7.read_unread, harg8.read_unread,
    View.ld_unit_zero (S := S1024x4096) hz, View.ld_unit_zero (S := S256x4096) hz, View.ld_unit_zero (S := S1024x256) hz, View.ld_unit_zero (S := S64x256) hz, View.ld_unit_zero (S := S8x128) hz, View.ld_unit_zero (S := S1x8) hz]

/-- The last point: the first accumulator is untouched, -/
theorem acc0_last (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i) (hc2 : cond0_2 i) (hc3 : cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    sout0_D_0 c i arg1 harg1 arg2 harg2 arg3 harg3 arg4 harg4 arg5 harg5 arg6 harg6 arg7 harg7 arg8 harg8 hc0 hc1 hc2 hc3 x0 x1 x2 x3 x4 xs0 xs1 = xs0 := rfl

/-- the second receives the product, -/
theorem acc1_last (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i) (hc2 : cond0_2 i) (hc3 : cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    sout0_D_1 c i arg1 harg1 arg2 harg2 arg3 harg3 arg4 harg4 arg5 harg5 arg6 harg6 arg7 harg7 arg8 harg8 hc0 hc1 hc2 hc3 x0 x1 x2 x3 x4 xs0 xs1 = k0_pay10 x0 x1 xs1 := by
  unfold sout0_D_1
  rw [View.read_writes_eq_canon _ _ _ (scover0_D_1 c i arg1 harg1 arg2 harg2 arg3 harg3 arg4 harg4 arg5 harg5 arg6 harg6 arg7 harg7 arg8 harg8 hc0 hc1 hc2 hc3 x0 x1 x2 x3 x4 xs0 xs1)]
  unfold kernelRun0_D
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S1024x4096) hz, View.ld_unit_zero (S := S256x4096) hz, View.ld_unit_zero (S := S1024x256) hz, View.ld_unit_zero (S := S64x256) hz, View.ld_unit_zero (S := S8x128) hz, View.ld_unit_zero (S := S1x8) hz]

/-- and the output block receives the rest of the network, computed from the first accumulator as the point before left
    it and the second accumulator as just updated. -/
theorem out_last (c : Dev nD) (i : grid0.Coords) (arg1 : Memref sig .tc .vmem S1024x4096 .f32) (harg1 : arg1.IsWhole) (arg2 : Memref sig .tc .vmem S256x4096 .f32) (harg2 : arg2.IsWhole) (arg3 : Memref sig .tc .vmem S64x256 .f32) (harg3 : arg3.IsWhole) (arg4 : Memref sig .tc .vmem S8x128 .f32) (harg4 : arg4.IsWhole) (arg5 : Memref sig .tc .vmem S1x8 .f32) (harg5 : arg5.IsWhole) (arg6 : Memref sig .tc .vmem S1024x1 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i) (hc2 : cond0_2 i) (hc3 : cond0_3 i)
    (x0 : Vec F S1024x4096 .f32) (x1 : Vec F S256x4096 .f32) (x2 : Vec F S64x256 .f32) (x3 : Vec F S8x128 .f32) (x4 : Vec F S1x8 .f32) (xs0 : Vec F S1024x256 .f32) (xs1 : Vec F S1024x256 .f32) :
    out0_D_5 c i arg1 harg1 arg2 harg2 arg3 harg3 arg4 harg4 arg5 harg5 arg6 harg6 arg7 harg7 arg8 harg8 hc0 hc1 hc2 hc3 x0 x1 x2 x3 x4 xs0 xs1
      = k0_pay1 (k0_pay4 (k0_pay2 (k0_pay10 x0 x1 xs1)) (k0_pay3 xs0 x2) x2 x3)
          (k0_pay5 (k0_pay2 (k0_pay10 x0 x1 xs1)) (k0_pay3 xs0 x2) x2 x3) x4 := by
  unfold out0_D_5
  rw [View.read_writes_eq_canon _ _ _ (cover0_D_5 c i arg1 harg1 arg2 harg2 arg3 harg3 arg4 harg4 arg5 harg5 arg6 harg6 arg7 harg7 arg8 harg8 hc0 hc1 hc2 hc3 x0 x1 x2 x3 x4 xs0 xs1)]
  unfold kernelRun0_D
  dsimp only
  sl_unfold_words
  rw [View.canon_unit_zero hz, View.readCov_unit_zero (S := S1024x256) _ hz]
  simp only [View.readAt_eq_ld, harg1.read_unread, harg2.read_unread, harg3.read_unread, harg4.read_unread, harg5.read_unread, harg7.read_unread, harg8.read_unread,
    View.ld_unit_zero (S := S1024x4096) hz, View.ld_unit_zero (S := S256x4096) hz, View.ld_unit_zero (S := S1024x256) hz, View.ld_unit_zero (S := S64x256) hz, View.ld_unit_zero (S := S8x128) hz, View.ld_unit_zero (S := S1x8) hz]

end Cert.KernelIdeal.Pieces
end
-- ==== Proof.Spec.lean ====
/-
  What both programs compute, written once, index by index, on the extended reals.

  The input `X` is a 1024 × 81920 array whose two halves of 40960 columns are both multiplied by the transpose of the
  256 × 40960 matrix `W1` (`layer1 off`: row `r`, column `c` is the sum over the 40960 columns `k` of
  `X (r, off + k) · W1 (c, k)`).  Each 1024 × 256 result is normalised row by row — the row's mean is subtracted and the
  difference divided by the square root of the mean squared difference — and passed through a leaky rectifier
  `max (s · y) y` (`lnl`), multiplied by the transpose of `W2` (`mm`), normalised and rectified again; the two
  1024 × 64 results are placed side by side (`cat`), multiplied by the transpose of `W3`, normalised and rectified,
  and multiplied by the transpose of `W4` (`tail`).  The divisors and the slope are kept as the float words both
  programs print; nothing here evaluates them.
-/
import Idealize.ShloMosaic.PureOps.Ideal
import Idealize.ShloMosaic.Lib.ValueIdx

open scoped BigOperators

noncomputable section

namespace Cert.Nnue

open Idealize.ShloMosaic Idealize.ShloMosaic.ValueIdx

/-- An `a × b` array of extended reals. -/
abbrev Arr (a b : ℕ) : Type := (⟨2, ![a, b]⟩ : Shape).Idx → EReal

/-- The rectifier's slope, the float word of 0.05. -/
def slope : EReal := Ideal.ofBits .f32 0x3D4CCCCD#32

/-- The divisors of the three row means: the float words of 256, 64 and 8. -/
def d256 : EReal := Ideal.ofBits .f32 0x43800000#32
def d64 : EReal := Ideal.ofBits .f32 0x42800000#32
def d8 : EReal := Ideal.ofBits .f32 0x41000000#32

/-- The mean of row `r` with divisor `d`. -/
def mean {n : ℕ} (d : EReal) (a : Arr 1024 n) (r : Fin 1024) : EReal :=
  Ideal.div (∑ k : Fin n, a (ix2 r k)) d

/-- The mean squared difference of row `r` from its mean. -/
def msd {n : ℕ} (d : EReal) (a : Arr 1024 n) (r : Fin 1024) : EReal :=
  Ideal.div (∑ k : Fin n, (a (ix2 r k) - mean d a r) * (a (ix2 r k) - mean d a r)) d

/-- The normalised entry `(r, c)`. -/
def normed {n : ℕ} (d : EReal) (a : Arr 1024 n) (r : Fin 1024) (c : Fin n) : EReal :=
  Ideal.div (a (ix2 r c) - mean d a r) (Ideal.sqrt (msd d a r))

/-- Row normalisation followed by the leaky rectifier, at `(r, c)`. -/
def lnlAt {n : ℕ} (d : EReal) (a : Arr 1024 n) (r : Fin 1024) (c : Fin n) : EReal :=
  max (slope * normed d a r c) (normed d a r c)

/-- Row normalisation followed by the leaky rectifier. -/
def lnl {n : ℕ} (d : EReal) (a : Arr 1024 n) : Arr 1024 n := fun j => lnlAt d a (j 0) (j 1)

theorem lnl_apply {n : ℕ} (d : EReal) (a : Arr 1024 n) (r : Fin 1024) (c : Fin n) :
    lnl d a (ix2 r c) = lnlAt d a r c := rfl

/-- The product with a transposed matrix: entry `(r, c)` is the sum over `k` of `a (r, k) · w (c, k)`. -/
def mm {K N : ℕ} (a : Arr 1024 K) (w : Arr N K) : Arr 1024 N :=
  fun j => ∑ k : Fin K, a (ix2 (j 0) k) * w (ix2 (j 1) k)

theorem mm_apply {K N : ℕ} (a : Arr 1024 K) (w : Arr N K) (r : Fin 1024) (c : Fin N) :
    mm a w (ix2 r c) = ∑ k : Fin K, a (ix2 r k) * w (ix2 c k) := rfl

/-- Two 1024 × 64 arrays side by side. -/
def cat (a b : Arr 1024 64) : Arr 1024 128 := fun j =>
  if h : (j 1).val < 64 then a (ix2 (j 0) ⟨(j 1).val, h⟩)
  else b (ix2 (j 0) ⟨(j 1).val - 64, by have := (j 1).isLt; change (j 1).val < 128 at this; omega⟩)

theorem cat_apply_left (a b : Arr 1024 64) (r : Fin 1024) (c : Fin 128) (h : c.val < 64) :
    cat a b (ix2 r c) = a (ix2 r ⟨c.val, h⟩) := dif_pos h

theorem cat_apply_right (a b : Arr 1024 64) (r : Fin 1024) (c : Fin 128) (h : ¬c.val < 64) :
    cat a b (ix2 r c) = b (ix2 r ⟨c.val - 64, by have := c.isLt; omega⟩) := dif_neg h

/-- The first layer on the half of `X` that starts at column `off`. -/
def layer1 (off : ℕ) (hoff : off + 40960 ≤ 81920) (X : Arr 1024 81920) (W1 : Arr 256 40960) : Arr 1024 256 :=
  fun j => ∑ k : Fin 40960, X (ix2 (j 0) ⟨off + k.val, by have := k.isLt; omega⟩) * W1 (ix2 (j 1) k)

theorem layer1_apply (off : ℕ) (hoff : off + 40960 ≤ 81920) (X : Arr 1024 81920) (W1 : Arr 256 40960)
    (r : Fin 1024) (c : Fin 256) :
    layer1 off hoff X W1 (ix2 r c) = ∑ k : Fin 40960, X (ix2 r ⟨off + k.val, by have := k.isLt; omega⟩) * W1 (ix2 c k) := rfl

/-- Everything after the first layer, from the two first-layer results. -/
def tail (a b : Arr 1024 256) (W2 : Arr 64 256) (W3 : Arr 8 128) (W4 : Arr 1 8) : Arr 1024 1 :=
  mm (lnl d8 (mm (cat (lnl d64 (mm (lnl d256 a) W2)) (lnl d64 (mm (lnl d256 b) W2))) W3)) W4

/-- The whole network. -/
def G (X : Arr 1024 81920) (W1 : Arr 256 40960) (W2 : Arr 64 256) (W3 : Arr 8 128) (W4 : Arr 1 8) : Arr 1024 1 :=
  tail (layer1 0 (by omega) X W1) (layer1 40960 (by omega) X W1) W2 W3 W4

end Cert.Nnue

end
-- ==== Proof.KChunk.lean ====
/-
  The product a grid point computes, read at an index of the argument arrays.

  At point `t` the first window's block is the 1024 × 4096 block of the first argument in block column
  `(t mod 2)·10 + t / 2`, and the second window's block is the 256 × 4096 block of the second argument in block column
  `t / 2`.  The body multiplies the first by the transpose of the second into a zero accumulator: entry `(r, c)` of the
  product is the sum over the 4096 columns `j` of the two blocks' entries `(r, j)` and `(c, j)`, that is of the
  arguments' entries in columns `(t mod 2)·40960 + (t / 2)·4096 + j` and `(t / 2)·4096 + j`.
-/
import proofs.«167364_g6923487281305_cont_9to1_m_76_12_alg».proof.Proof.Gen.KernelIdeal.Frame
import proofs.«167364_g6923487281305_cont_9to1_m_76_12_alg».proof.Proof.Spec
import Idealize.ShloMosaic.Lib.ValueIdx
import Idealize.ShloMosaic.Lib.Pipeline.Value
import Idealize.ShloMosaic.PureOps.Ideal.Laws

open scoped BigOperators

noncomputable section

open Idealize.ShloMosaic Idealize.ShloMosaic.TcCoe Idealize.SL.Sem Idealize.ShloMosaic.ValueIdx

namespace Cert.KernelIdeal.Chunk

open Cert.KernelIdeal Cert.KernelIdeal.Gen

/-- A product with a transposed matrix into a zero accumulator: entry `(r, c)` is the sum over the contracted
    columns `j` of `x0 (r, j) · x1 (c, j)`. -/
theorem pay8_apply (x0 : Vec Ideal S1024x4096 .f32) (x1 : Vec Ideal S256x4096 .f32) (r : Fin 1024) (cc : Fin 256) :
    k0_pay8 (F := Ideal) x0 x1 (ix2 r cc) = ∑ j : Fin 4096, x0 (ix2 r j) * x1 (ix2 cc j) := by
  unfold k0_pay8
  refine (Ideal.matmul_constant_zero_apply dot_S1024x4096_S256x4096_S1024x256_1_1_0_0_n_n none x0 x1 (ix2 r cc)).trans ?_
  refine (Equiv.sum_comp (contrEquiv1 dot_S1024x4096_S256x4096_S1024x256_1_1_0_0_n_n 4096 rfl rfl).symm
    (fun k => x0 (dot_S1024x4096_S256x4096_S1024x256_1_1_0_0_n_n.lhsIdx (ix2 r cc) k)
      * x1 (dot_S1024x4096_S256x4096_S1024x256_1_1_0_0_n_n.rhsIdx (ix2 r cc) k))).symm.trans ?_
  refine Finset.sum_congr rfl fun j _ => ?_
  have e0 : dot_S1024x4096_S256x4096_S1024x256_1_1_0_0_n_n.lhsIdx (ix2 r cc)
      ((contrEquiv1 dot_S1024x4096_S256x4096_S1024x256_1_1_0_0_n_n 4096 rfl rfl).symm j) = ix2 r j :=
    funext fun a => Fin.ext (by
      match a with
      | ⟨0, _⟩ => rfl
      | ⟨1, _⟩ =>
        exact (DotDims.lhsIdx_val_of_single _ (cl := (1 : Fin 2)) rfl _ _).trans
          (contrEquiv1_symm_val dot_S1024x4096_S256x4096_S1024x256_1_1_0_0_n_n 4096 rfl rfl j))
  have e1 : dot_S1024x4096_S256x4096_S1024x256_1_1_0_0_n_n.rhsIdx (ix2 r cc)
      ((contrEquiv1 dot_S1024x4096_S256x4096_S1024x256_1_1_0_0_n_n 4096 rfl rfl).symm j) = ix2 cc j :=
    funext fun a => Fin.ext (by
      match a with
      | ⟨0, _⟩ => rfl
      | ⟨1, _⟩ =>
        exact (DotDims.rhsIdx_val_of_single _ (cr := (1 : Fin 2)) rfl _ _).trans
          (contrEquiv1_symm_val dot_S1024x4096_S256x4096_S1024x256_1_1_0_0_n_n 4096 rfl rfl j))
  show x0 _ * x1 _ = _
  rw [e0, e1]

variable (m : (ℓ : Loc nD τ sig) → Buf (Elt Ideal) ℓ)

/-- The block columns of the two windows at every grid point. -/
theorem index0 : ∀ t : Fin cfg0.N, win0_0.index t 0 = 0 ∧ win0_0.index t 1 = t.val % 2 * 10 + t.val / 2 :=
  (by decide +kernel : ∀ t : Fin grid0.N, win0_0.index t 0 = 0 ∧ win0_0.index t 1 = t.val % 2 * 10 + t.val / 2)

theorem index1 : ∀ t : Fin cfg0.N, win0_1.index t 0 = 0 ∧ win0_1.index t 1 = t.val / 2 :=
  (by decide +kernel : ∀ t : Fin grid0.N, win0_1.index t 0 = 0 ∧ win0_1.index t 1 = t.val / 2)

/-- The first window's block at point `t` reads the first argument in column `(t mod 2)·40960 + (t / 2)·4096 + j`. -/
theorem blk0_apply (c : Dev nD) (t : Fin cfg0.N) (r : Fin 1024) (j : Fin 4096) (k : Fin 81920)
    (hk : k.val = t.val % 2 * 40960 + t.val / 2 * 4096 + j.val) :
    (iblk m c 0 t : Vec Ideal S1024x4096 .f32) (ix2 r j) = m ((c : Thread nD τ).loc main_arg0) (ix2 r k) := by
  unfold iblk
  rw [View.read_apply]
  show V m c main_arg0 _ = m (c.tc.loc main_arg0) _
  unfold V
  refine congrArg _ (funext fun a => Fin.ext ?_)
  match a with
  | ⟨0, _⟩ => show win0_0.index t 0 * 1024 + 1 * r.val = r.val; rw [(index0 t).1]; omega
  | ⟨1, _⟩ => show win0_0.index t 1 * 4096 + 1 * j.val = k.val; rw [(index0 t).2, hk]; omega

/-- The second window's block at point `t` reads the second argument in column `(t / 2)·4096 + j`. -/
theorem blk1_apply (c : Dev nD) (t : Fin cfg0.N) (cc : Fin 256) (j : Fin 4096) (k : Fin 40960)
    (hk : k.val = t.val / 2 * 4096 + j.val) :
    (iblk m c 1 t : Vec Ideal S256x4096 .f32) (ix2 cc j) = m ((c : Thread nD τ).loc main_arg1) (ix2 cc k) := by
  unfold iblk
  rw [View.read_apply]
  show V m c main_arg1 _ = m (c.tc.loc main_arg1) _
  unfold V
  refine congrArg _ (funext fun a => Fin.ext ?_)
  match a with
  | ⟨0, _⟩ => show win0_1.index t 0 * 256 + 1 * cc.val = cc.val; rw [(index1 t).1]; omega
  | ⟨1, _⟩ => show win0_1.index t 1 * 4096 + 1 * j.val = k.val; rw [(index1 t).2, hk]; omega

end Cert.KernelIdeal.Chunk

end
-- ==== Proof.LibSumSplit.lean ====
/-
  Two ways of regrouping a finite sum in a commutative monoid.

  A sum over the first `2·n` naturals that keeps only the even ones (or only the odd ones), each contributing a term
  that depends on its half, is the sum of those terms over the first `n` naturals.  A sum over the first `a·b`
  naturals is the sum over `a` consecutive runs of length `b`.  Both use only associativity and commutativity of the
  addition, so they hold on the extended reals with no finiteness assumption.
-/
import Mathlib.Algebra.BigOperators.Fin
import Mathlib.Algebra.BigOperators.Intervals

open scoped BigOperators

namespace Cert.LibSumSplit

variable {M : Type*} [AddCommMonoid M]

/-- Keeping the even naturals below `2·n`, the one `2·i` contributing `f i`: the sum of `f` over `i < n`. -/
theorem sum_range_even (f : ℕ → M) (n : ℕ) :
    ∑ s ∈ Finset.range (2 * n), (if s % 2 = 0 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : (2 * n) % 2 = 0 := by omega
    have h1 : ¬(2 * n + 1) % 2 = 0 := by omega
    have h2 : (2 * n) / 2 = n := by omega
    rw [if_pos h0, if_neg h1, h2, add_zero]

/-- Keeping the odd naturals below `2·n`, the one `2·i + 1` contributing `f i`: the sum of `f` over `i < n`. -/
theorem sum_range_odd (f : ℕ → M) (n : ℕ) :
    ∑ s ∈ Finset.range (2 * n), (if s % 2 = 1 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : ¬(2 * n) % 2 = 1 := by omega
    have h1 : (2 * n + 1) % 2 = 1 := by omega
    have h2 : (2 * n + 1) / 2 = n := by omega
    rw [if_neg h0, if_pos h1, h2, add_zero]

/-- The first `a·b` naturals are `a` consecutive runs of `b`. -/
theorem sum_range_mul (g : ℕ → M) (a b : ℕ) :
    ∑ k ∈ Finset.range (a * b), g k = ∑ i ∈ Finset.range a, ∑ j ∈ Finset.range b, g (i * b + j) := by
  induction a with
  | zero => simp
  | succ a ih =>
    rw [Finset.sum_range_succ, ← ih, Nat.succ_mul, Finset.sum_range_add]

end Cert.LibSumSplit
-- ==== Proof.KAccum.lean ====
/-
  What the two accumulators hold after each grid point, and that after the last point they are the two first-layer
  products of the specification.

  Point `n` adds its product to the first accumulator when `n` is even and to the second when `n` is odd; the first
  point starts both from zero.  So after point `n` each accumulator is the sum of its addends over the points up to
  `n`.  The even points `2q` read the columns `q·4096 … q·4096 + 4095` of the first half of the first argument and
  of the second argument; the odd points `2q + 1` the same columns of the second half: over the twenty points the
  ten blocks of 4096 columns make up all 40960 columns, and the sums regroup by associativity and commutativity alone.
-/
import proofs.«167364_g6923487281305_cont_9to1_m_76_12_alg».proof.Proof.KPieces
import proofs.«167364_g6923487281305_cont_9to1_m_76_12_alg».proof.Proof.KChunk
import proofs.«167364_g6923487281305_cont_9to1_m_76_12_alg».proof.Proof.LibSumSplit
import proofs.«167364_g6923487281305_cont_9to1_m_76_12_alg».proof.Proof.Gen.KernelIdeal.Value

open scoped BigOperators

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Value

variable (m : (ℓ : Loc nD τ sig) → Buf (Elt Ideal) ℓ)

/-! ## The payloads of the accumulator stores, at an index -/

theorem pay9_apply (x0 : Vec Ideal S1024x4096 .f32) (x1 : Vec Ideal S256x4096 .f32) (acc : Vec Ideal S1024x256 .f32)
    (i : S1024x256.Idx) : k0_pay9 (F := Ideal) x0 x1 acc i = acc i + k0_pay8 (F := Ideal) x0 x1 i := by
  unfold k0_pay9
  rw [shapeCast_self]
  rfl

theorem pay10_apply (x0 : Vec Ideal S1024x4096 .f32) (x1 : Vec Ideal S256x4096 .f32) (acc : Vec Ideal S1024x256 .f32)
    (i : S1024x256.Idx) : k0_pay10 (F := Ideal) x0 x1 acc i = acc i + k0_pay8 (F := Ideal) x0 x1 i := by
  unfold k0_pay10
  rw [shapeCast_self]
  rfl

theorem pay6_apply (i : S1024x256.Idx) : k0_pay6 (F := Ideal) i = 0 := by
  unfold k0_pay6
  rw [shapeCast_self]
  exact Ideal.ofBits_zero_f32

theorem pay7_apply (i : S1024x256.Idx) : k0_pay7 (F := Ideal) i = 0 := by
  unfold k0_pay7
  rw [shapeCast_self]
  exact Ideal.ofBits_zero_f32

/-! ## The addends -/

/-- Point `n`'s product (zero past the grid). -/
def prod (c : Dev nD) (n : ℕ) : S1024x256.Idx → EReal := fun i =>
  if h : n < cfg0.N then k0_pay8 (F := Ideal) (iblk m c 0 ⟨n, h⟩) (iblk m c 1 ⟨n, h⟩) i else 0

/-- What point `n` adds to the first accumulator: its product when `n` is even. -/
def add0 (c : Dev nD) (n : ℕ) : S1024x256.Idx → EReal := fun i => if n % 2 = 0 then prod m c n i else 0

/-- What point `n` adds to the second accumulator: its product when `n` is odd. -/
def add1 (c : Dev nD) (n : ℕ) : S1024x256.Idx → EReal := fun i => if n % 2 = 1 then prod m c n i else 0

/-! ## The first accumulator -/

theorem reset0 (c : Dev nD) (h : 0 < cfg0.N) (i : S1024x256.Idx) :
    scAt0_0 m c 0 h (VS0_0.read (Elt Ideal) VS0_0.junk) i = (fun _ => (0 : EReal)) i + add0 m c 0 i := by
  unfold scAt0_0
  rw [dif_pos (by decide : 0 % 20 = 0), dif_pos (by decide : 0 % 2 = 0), dif_neg (by decide : ¬0 % 2 = 1),
    dif_neg (by decide : ¬0 % 20 = 19)]
  refine (congrFun (Pieces.acc0_first ..) i).trans ?_
  rw [pay9_apply, pay6_apply]
  unfold add0 prod
  rw [if_pos rfl, dif_pos h]

theorem step0 (c : Dev nD) (n : ℕ) (h : n < cfg0.N) (acc : S1024x256.Idx → EReal) (i : S1024x256.Idx) (hpos : 0 < n) :
    scAt0_0 m c n h acc i = acc i + add0 m c n i := by
  have hN : n < 20 := lt_of_lt_of_eq h N_0
  by_cases h1 : n % 2 = 0
  · have h0 : ¬n % 20 = 0 := by omega
    have h2 : ¬n % 2 = 1 := by omega
    have h3 : ¬n % 20 = 19 := by omega
    unfold scAt0_0
    rw [dif_neg h0, dif_pos h1, dif_neg h2, dif_neg h3]
    refine (congrFun (Pieces.acc0_even ..) i).trans ?_
    rw [pay9_apply]
    unfold add0 prod
    rw [if_pos h1, dif_pos h]
  · have h0 : ¬n % 20 = 0 := by omega
    have h2 : n % 2 = 1 := by omega
    have e : add0 m c n i = 0 := by unfold add0; rw [if_neg h1]
    rw [e, add_zero]
    by_cases h3 : n % 20 = 19
    · unfold scAt0_0
      rw [dif_neg h0, dif_neg h1, dif_pos h2, dif_pos h3]
      rfl
    · unfold scAt0_0
      rw [dif_neg h0, dif_neg h1, dif_pos h2, dif_neg h3]
      rfl

/-- After point `n` the first accumulator is the sum of its addends over the points up to `n`. -/
theorem acc0_after (c : Dev nD) (n : ℕ) (hn : n < cfg0.N) (i : S1024x256.Idx) :
    (outsAt0 m c n hn).2.1 i = 0 + ∑ s ∈ Finset.range (n + 1), add0 m c (0 + s) i := by
  have hN : n < 20 := lt_of_lt_of_eq hn N_0
  rw [soutsAt0_0_sweep]
  exact Pipeline.accAt_add_apply (fun n h => scAt0_0 m c n h (VS0_0.read (Elt Ideal) VS0_0.junk)) (scAt0_0 m c)
    (fun _ => (0 : EReal)) (add0 m c) 0 19 (fun h i => reset0 m c h i)
    (fun n h acc i hpos _ => step0 m c n h acc i hpos) n (by omega) _ i

/-! ## The second accumulator -/

theorem reset1 (c : Dev nD) (h : 0 < cfg0.N) (i : S1024x256.Idx) :
    scAt0_1 m c 0 h (VS0_1.read (Elt Ideal) VS0_1.junk) i = (fun _ => (0 : EReal)) i + add1 m c 0 i := by
  unfold scAt0_1
  rw [dif_pos (by decide : 0 % 20 = 0), dif_pos (by decide : 0 % 2 = 0), dif_neg (by decide : ¬0 % 2 = 1),
    dif_neg (by decide : ¬0 % 20 = 19)]
  refine (congrFun (Pieces.acc1_first ..) i).trans ?_
  rw [pay7_apply]
  unfold add1
  rw [if_neg (by decide : ¬0 % 2 = 1), add_zero]

theorem step1 (c : Dev nD) (n : ℕ) (h : n < cfg0.N) (acc : S1024x256.Idx → EReal) (i : S1024x256.Idx) (hpos : 0 < n) :
    scAt0_1 m c n h acc i = acc i + add1 m c n i := by
  have hN : n < 20 := lt_of_lt_of_eq h N_0
  by_cases h1 : n % 2 = 0
  · have h0 : ¬n % 20 = 0 := by omega
    have h2 : ¬n % 2 = 1 := by omega
    have h3 : ¬n % 20 = 19 := by omega
    have e : add1 m c n i = 0 := by unfold add1; rw [if_neg h2]
    rw [e, add_zero]
    unfold scAt0_1
    rw [dif_neg h0, dif_pos h1, dif_neg h2, dif_neg h3]
    rfl
  · have h0 : ¬n % 20 = 0 := by omega
    have h2 : n % 2 = 1 := by omega
    have e : add1 m c n i = k0_pay8 (F := Ideal) (iblk m c 0 ⟨n, h⟩) (iblk m c 1 ⟨n, h⟩) i := by
      unfold add1 prod; rw [if_pos h2, dif_pos h]
    rw [e]
    by_cases h3 : n % 20 = 19
    · unfold scAt0_1
      rw [dif_neg h0, dif_neg h1, dif_pos h2, dif_pos h3]
      refine (congrFun (Pieces.acc1_last ..) i).trans ?_
      rw [pay10_apply]
    · unfold scAt0_1
      rw [dif_neg h0, dif_neg h1, dif_pos h2, dif_neg h3]
      refine (congrFun (Pieces.acc1_odd ..) i).trans ?_
      rw [pay10_apply]

/-- After point `n` the second accumulator is the sum of its addends over the points up to `n`. -/
theorem acc1_after (c : Dev nD) (n : ℕ) (hn : n < cfg0.N) (i : S1024x256.Idx) :
    (outsAt0 m c n hn).2.2 i = 0 + ∑ s ∈ Finset.range (n + 1), add1 m c (0 + s) i := by
  have hN : n < 20 := lt_of_lt_of_eq hn N_0
  rw [soutsAt0_1_sweep]
  exact Pipeline.accAt_add_apply (fun n h => scAt0_1 m c n h (VS0_1.read (Elt Ideal) VS0_1.junk)) (scAt0_1 m c)
    (fun _ => (0 : EReal)) (add1 m c) 0 19 (fun h i => reset1 m c h i)
    (fun n h acc i hpos _ => step1 m c n h acc i hpos) n (by omega) _ i

end Cert.KernelIdeal.Accum

end
-- ==== Proof.KTotal.lean ====
/-
  After the last grid point the two accumulators hold the specification's two first-layer products.

  The first accumulator is the sum over the even points `2q` of the product of the blocks in columns
  `q·4096 … q·4096 + 4095` of the first half of the first argument and of the second argument; the second accumulator
  the same over the odd points and the second half.  Ten blocks of 4096 columns are the 40960 columns of the
  specification's sum.
-/
import proofs.«167364_g6923487281305_cont_9to1_m_76_12_alg».proof.Proof.KAccum
import proofs.«167364_g6923487281305_cont_9to1_m_76_12_alg».proof.Proof.Spec

open scoped BigOperators

noncomputable section

open Idealize.ShloMosaic Idealize.ShloMosaic.TcCoe Idealize.SL.Sem Idealize.ShloMosaic.ValueIdx

namespace Cert.KernelIdeal.Total

open Cert.KernelIdeal Cert.KernelIdeal.Gen

variable (m : (ℓ : Loc nD τ sig) → Buf (Elt Ideal) ℓ)

/-- The first two argument arrays, as arrays of extended reals. -/
abbrev arg0 (c : Dev nD) : Cert.Nnue.Arr 1024 81920 := m ((c : Thread nD τ).loc main_arg0)
abbrev arg1 (c : Dev nD) : Cert.Nnue.Arr 256 40960 := m ((c : Thread nD τ).loc main_arg1)

/-- Column `k`'s term of entry `(r, cc)` of the first layer on the half that starts at column `off` (zero past the
    last column). -/
def term (c : Dev nD) (off : ℕ) (hoff : off + 40960 ≤ 81920) (r : Fin 1024) (cc : Fin 256) (k : ℕ) : EReal :=
  if h : k < 40960 then
    arg0 m c (ix2 r ⟨off + k, by omega⟩) * arg1 m c (ix2 cc ⟨k, h⟩)
  else 0

/-- Point `n`'s product at `(r, cc)`: the terms of the 4096 columns from `(n / 2)·4096` on, in the half `n mod 2`. -/
theorem prod_apply (c : Dev nD) (n : ℕ) (hn : n < 20) (r : Fin 1024) (cc : Fin 256) (off : ℕ)
    (hoff : off + 40960 ≤ 81920) (ho : off = n % 2 * 40960) :
    Accum.prod m c n (ix2 r cc) = ∑ j ∈ Finset.range 4096, term m c off hoff r cc (n / 2 * 4096 + j) := by
  have hN : n < cfg0.N := lt_of_lt_of_eq hn N_0.symm
  unfold Accum.prod
  rw [dif_pos hN]
  refine (Chunk.pay8_apply _ _ r cc).trans ?_
  rw [Finset.sum_range]
  refine Finset.sum_congr rfl fun j _ => ?_
  have hb : n / 2 * 4096 + j.val < 40960 := by have := j.isLt; omega
  have hk0 : off + (n / 2 * 4096 + j.val) = n % 2 * 40960 + n / 2 * 4096 + j.val := by omega
  unfold term
  rw [dif_pos hb]
  exact congrArg₂ (· * ·)
    (Chunk.blk0_apply m c ⟨n, hN⟩ r j ⟨off + (n / 2 * 4096 + j.val), by omega⟩ hk0)
    (Chunk.blk1_apply m c ⟨n, hN⟩ cc j ⟨n / 2 * 4096 + j.val, hb⟩ rfl)

/-- The 40960 terms are the specification's sum. -/
theorem sum_term (c : Dev nD) (off : ℕ) (hoff : off + 40960 ≤ 81920) (r : Fin 1024) (cc : Fin 256) :
    ∑ k ∈ Finset.range 40960, term m c off hoff r cc k
      = Cert.Nnue.layer1 off hoff (m ((c : Thread nD τ).loc main_arg0)) (m ((c : Thread nD τ).loc main_arg1)) (ix2 r cc) := by
  rw [Cert.Nnue.layer1_apply, Finset.sum_range]
  refine Finset.sum_congr rfl fun k _ => ?_
  unfold term
  rw [dif_pos k.isLt]

/-- The first accumulator after the last point. -/
theorem total0 (c : Dev nD) (r : Fin 1024) (cc : Fin 256) :
    (0 : EReal) + ∑ s ∈ Finset.range (19 + 1), Accum.add0 m c (0 + s) (ix2 r cc)
      = Cert.Nnue.layer1 0 (by omega) (m ((c : Thread nD τ).loc main_arg0)) (m ((c : Thread nD τ).loc main_arg1)) (ix2 r cc) := by
  rw [zero_add]
  have e1 : ∀ s ∈ Finset.range (2 * 10), Accum.add0 m c (0 + s) (ix2 r cc)
      = if s % 2 = 0 then (fun q => ∑ j ∈ Finset.range 4096, term m c 0 (by omega) r cc (q * 4096 + j)) (s / 2) else 0 := by
    intro s hs
    have hs' : s < 20 := Finset.mem_range.mp hs
    rw [Nat.zero_add]
    unfold Accum.add0
    by_cases h : s % 2 = 0
    · rw [if_pos h, if_pos h]
      exact prod_apply m c s hs' r cc 0 (by omega) (by omega)
    · rw [if_neg h, if_neg h]
  show ∑ s ∈ Finset.range (2 * 10), Accum.add0 m c (0 + s) (ix2 r cc) = _
  refine (Finset.sum_congr rfl e1).trans ?_
  refine (LibSumSplit.sum_range_even
    (fun q => ∑ j ∈ Finset.range 4096, term m c 0 (by omega) r cc (q * 4096 + j)) 10).trans ?_
  refine (LibSumSplit.sum_range_mul (fun k => term m c 0 (by omega) r cc k) 10 4096).symm.trans ?_
  exact sum_term m c 0 (by omega) r cc

/-- The second accumulator after the last point. -/
theorem total1 (c : Dev nD) (r : Fin 1024) (cc : Fin 256) :
    (0 : EReal) + ∑ s ∈ Finset.range (19 + 1), Accum.add1 m c (0 + s) (ix2 r cc)
      = Cert.Nnue.layer1 40960 (by omega) (m ((c : Thread nD τ).loc main_arg0)) (m ((c : Thread nD τ).loc main_arg1)) (ix2 r cc) := by
  rw [zero_add]
  have e1 : ∀ s ∈ Finset.range (2 * 10), Accum.add1 m c (0 + s) (ix2 r cc)
      = if s % 2 = 1 then (fun q => ∑ j ∈ Finset.range 4096, term m c 40960 (by omega) r cc (q * 4096 + j)) (s / 2) else 0 := by
    intro s hs
    have hs' : s < 20 := Finset.mem_range.mp hs
    rw [Nat.zero_add]
    unfold Accum.add1
    by_cases h : s % 2 = 1
    · rw [if_pos h, if_pos h]
      exact prod_apply m c s hs' r cc 40960 (by omega) (by omega)
    · rw [if_neg h, if_neg h]
  show ∑ s ∈ Finset.range (2 * 10), Accum.add1 m c (0 + s) (ix2 r cc) = _
  refine (Finset.sum_congr rfl e1).trans ?_
  refine (LibSumSplit.sum_range_odd
    (fun q => ∑ j ∈ Finset.range 4096, term m c 40960 (by omega) r cc (q * 4096 + j)) 10).trans ?_
  refine (LibSumSplit.sum_range_mul (fun k => term m c 40960 (by omega) r cc k) 10 4096).symm.trans ?_
  exact sum_term m c 40960 (by omega) r cc

end Cert.KernelIdeal.Total

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KEpiLnl.lean ====
/-
  The row normalisation followed by the leaky rectifier, as a chain of whole-array operations, read index by index.

  The chain: the row sums `s` of an `1024 × n` array `x` are viewed as a column and divided by a float word `w`
  (the column of row means); the column is spread along the rows and subtracted from `x`; the squares of the
  differences are summed along each row, viewed as a column and divided by `w` again (the column of mean squared
  differences); its square root is spread along the rows and divides the differences; the result `y` is passed
  through `max (s · y) y` with the slope word `s`.  At the extended reals this is, entry by entry, the
  specification's `lnl` with divisor the value of `w` — whatever `n`, since a row sum is a finite sum over the
  row's columns and every other step is taken entry by entry or copies a column's entry.
-/
import Idealize.ShloMosaic.Lib.Pipeline.Value
import Idealize.ShloMosaic.Lib.ValueIdx
import Idealize.ShloMosaic.PureOps.Ideal.Laws
import proofs.«167364_g6923487281305_cont_9to1_m_76_12_alg».proof.Proof.Spec
import proofs.«167364_g6923487281305_cont_9to1_m_76_12_alg».proof.Proof.LibKeepdims

open scoped BigOperators

noncomputable section

namespace Cert.Nnue.KEpi

open Idealize.ShloMosaic Idealize.ShloMosaic.ValueIdx Cert.LibKeepdims

/-- A vector of 1024 entries as a column, every entry divided by the float word `w`. -/
def colDiv (w : BitVec 32) (hs : (⟨1, ![1024]⟩ : Shape).ShapeCasts ⟨2, ![1024, 1]⟩)
    (s : FVec Ideal ⟨1, ![1024]⟩ .f32) : FVec Ideal ⟨2, ![1024, 1]⟩ .f32 :=
  divf (shapeCast ⟨2, ![1024, 1]⟩ s hs) (broadcast ⟨2, ![1024, 1]⟩ (Scalar.ofBits .f32 w))

/-- Its entry `(r, 0)` is the vector's entry `r` divided by the value of `w`. -/
theorem colDiv_apply (w : BitVec 32) (hs : (⟨1, ![1024]⟩ : Shape).ShapeCasts ⟨2, ![1024, 1]⟩)
    (s : FVec Ideal ⟨1, ![1024]⟩ .f32) (r : Fin 1024) (u : Fin 1) :
    colDiv w hs s (ix2 r u) = Ideal.div (s (ix1 r)) (Ideal.ofBits .f32 w) :=
  congrArg (fun t => Ideal.div t (Ideal.ofBits .f32 w)) (shapeCast_a_a1_apply s hs r u)

variable {n : ℕ}

/-- An array less a column spread along its rows. -/
def centred (hb : (⟨2, ![1024, 1]⟩ : Shape).Broadcasts ⟨2, ![1024, n]⟩)
    (x : FVec Ideal ⟨2, ![1024, n]⟩ .f32) (m : FVec Ideal ⟨2, ![1024, 1]⟩ .f32) : FVec Ideal ⟨2, ![1024, n]⟩ .f32 :=
  subf x (broadcastTo ⟨2, ![1024, n]⟩ m hb)

theorem centred_apply (hb : (⟨2, ![1024, 1]⟩ : Shape).Broadcasts ⟨2, ![1024, n]⟩)
    (x : FVec Ideal ⟨2, ![1024, n]⟩ .f32) (m : FVec Ideal ⟨2, ![1024, 1]⟩ .f32) (r : Fin 1024) (c : Fin n) :
    centred hb x m (ix2 r c) = x (ix2 r c) - m (ix2 r (0 : Fin 1)) :=
  congrArg (fun t => x (ix2 r c) - t) (broadcastTo_a1_ab_apply m hb r c)

/-- The normalised array: the differences from the row means, divided by the square roots of the rows' mean squared
    differences.  `s` is the vector of row sums of `x`. -/
def normalised (w : BitVec 32) (hr : (⟨2, ![1024, n]⟩ : Shape).Reduces [1] ⟨1, ![1024]⟩)
    (hs : (⟨1, ![1024]⟩ : Shape).ShapeCasts ⟨2, ![1024, 1]⟩) (hb : (⟨2, ![1024, 1]⟩ : Shape).Broadcasts ⟨2, ![1024, n]⟩)
    (x : FVec Ideal ⟨2, ![1024, n]⟩ .f32) (s : FVec Ideal ⟨1, ![1024]⟩ .f32) : FVec Ideal ⟨2, ![1024, n]⟩ .f32 :=
  divf (centred hb x (colDiv w hs s))
    (broadcastTo ⟨2, ![1024, n]⟩
      (sqrt (colDiv w hs
        (multiReduction .add [1] ⟨1, ![1024]⟩
          (mulf (centred hb x (colDiv w hs s)) (centred hb x (colDiv w hs s))) 0x00000000#32 hr (.inl rfl) rfl))) hb)

/-- The whole block: the normalised array through the leaky rectifier. -/
def lnBlock (w : BitVec 32) (hr : (⟨2, ![1024, n]⟩ : Shape).Reduces [1] ⟨1, ![1024]⟩)
    (hs : (⟨1, ![1024]⟩ : Shape).ShapeCasts ⟨2, ![1024, 1]⟩) (hb : (⟨2, ![1024, 1]⟩ : Shape).Broadcasts ⟨2, ![1024, n]⟩)
    (x : FVec Ideal ⟨2, ![1024, n]⟩ .f32) (s : FVec Ideal ⟨1, ![1024]⟩ .f32) : FVec Ideal ⟨2, ![1024, n]⟩ .f32 :=
  maximumf (mulf (broadcast ⟨2, ![1024, n]⟩ (Scalar.ofBits .f32 0x3D4CCCCD#32)) (normalised w hr hs hb x s))
    (normalised w hr hs hb x s)

section
variable (w : BitVec 32) (hr : (⟨2, ![1024, n]⟩ : Shape).Reduces [1] ⟨1, ![1024]⟩)
  (hs : (⟨1, ![1024]⟩ : Shape).ShapeCasts ⟨2, ![1024, 1]⟩) (hb : (⟨2, ![1024, 1]⟩ : Shape).Broadcasts ⟨2, ![1024, n]⟩)
  (x : FVec Ideal ⟨2, ![1024, n]⟩ .f32) (s : FVec Ideal ⟨1, ![1024]⟩ .f32)
  (hsum : ∀ r : Fin 1024, s (ix1 r) = ∑ c : Fin n, x (ix2 r c))

include hsum

/-- The differences are the specification's: entry less row mean. -/
theorem centred_mean (r : Fin 1024) (c : Fin n) :
    centred hb x (colDiv w hs s) (ix2 r c) = x (ix2 r c) - mean (Ideal.ofBits .f32 w) x r := by
  rw [centred_apply, colDiv_apply, hsum]
  rfl

/-- The normalised entries are the specification's. -/
theorem normalised_apply (r : Fin 1024) (c : Fin n) :
    normalised w hr hs hb x s (ix2 r c) = normed (Ideal.ofBits .f32 w) x r c := by
  have hsq : colDiv w hs (multiReduction .add [1] ⟨1, ![1024]⟩
        (mulf (centred hb x (colDiv w hs s)) (centred hb x (colDiv w hs s))) 0x00000000#32 hr (.inl rfl) rfl) (ix2 r (0 : Fin 1))
      = msd (Ideal.ofBits .f32 w) x r := by
    rw [colDiv_apply]
    refine congrArg (fun t => Ideal.div t (Ideal.ofBits .f32 w)) ?_
    refine (multiReduction_add_rows _ _ hr _ _ r).trans ?_
    refine Finset.sum_congr rfl fun k _ => ?_
    rw [mulf_apply, centred_mean w hs hb x s hsum r k]
  show Ideal.div (centred hb x (colDiv w hs s) (ix2 r c)) (broadcastTo ⟨2, ![1024, n]⟩ _ hb (ix2 r c)) = _
  rw [broadcastTo_a1_ab_apply, centred_mean w hs hb x s hsum r c]
  show Ideal.div _ (Ideal.sqrt (colDiv w hs _ (ix2 r (0 : Fin 1)))) = _
  rw [hsq]
  rfl

/-- THE BLOCK IS THE SPECIFICATION'S `lnl` with divisor the value of `w`. -/
theorem lnBlock_eq : lnBlock w hr hs hb x s = lnl (Ideal.ofBits .f32 w) x := by
  funext j
  obtain ⟨r, c, rfl⟩ : ∃ (r : Fin 1024) (c : Fin n), j = ix2 r c := ⟨j 0, j 1, eq_ix2 j⟩
  show max (Ideal.ofBits .f32 0x3D4CCCCD#32 * normalised w hr hs hb x s (ix2 r c)) (normalised w hr hs hb x s (ix2 r c)) = _
  rw [normalised_apply w hr hs hb x s hsum r c]
  rfl

end

/-- The block on its own row sums. -/
theorem lnBlock_rows_eq (w : BitVec 32) (hr : (⟨2, ![1024, n]⟩ : Shape).Reduces [1] ⟨1, ![1024]⟩)
    (hs : (⟨1, ![1024]⟩ : Shape).ShapeCasts ⟨2, ![1024, 1]⟩) (hb : (⟨2, ![1024, 1]⟩ : Shape).Broadcasts ⟨2, ![1024, n]⟩)
    (x : FVec Ideal ⟨2, ![1024, n]⟩ .f32) :
    lnBlock w hr hs hb x (multiReduction .add [1] ⟨1, ![1024]⟩ x 0x00000000#32 hr (.inl rfl) rfl)
      = lnl (Ideal.ofBits .f32 w) x :=
  lnBlock_eq w hr hs hb x _ fun r => multiReduction_add_rows x _ hr _ _ r

end Cert.Nnue.KEpi

end
-- ==== Proof.KEpiMm.lean ====
/-
  A product with a transposed matrix, as the matrix unit's operation into a zero accumulator, read index by index;
  and two arrays placed side by side, read index by index.

  The dimension numbers contract the second axis of both operands and keep the first axis of each: the left operand
  is `M × K`, the right `N × K`, the result `M × N`.  At result index `(r, c)` and contraction position `k` the left
  operand is read at `(r, k)` and the right at `(c, k)`; the contraction positions are the `K` columns.  So at the
  extended reals, into the zero accumulator, entry `(r, c)` is the sum over `k` of `l (r, k) · w (c, k)`: the
  specification's `mm`.
-/
import Idealize.ShloMosaic.Lib.Pipeline.Value
import Idealize.ShloMosaic.Lib.ValueIdx
import Idealize.ShloMosaic.PureOps.Ideal.Laws
import proofs.«167364_g6923487281305_cont_9to1_m_76_12_alg».proof.Proof.Spec

open scoped BigOperators

noncomputable section

namespace Cert.Nnue.KEpi

open Idealize.ShloMosaic Idealize.ShloMosaic.ValueIdx

section Dims
variable {M K N : ℕ} (d : DotDims ⟨2, ![M, K]⟩ ⟨2, ![N, K]⟩ ⟨2, ![M, N]⟩)
  (hlb : d.lhsBatch = []) (hln : d.lhsNonContracting = [0]) (hrb : d.rhsBatch = []) (hrn : d.rhsNonContracting = [0])

/-- Equal positions of an index hold equal coordinates. -/
private theorem coord_val_congr {s : Shape} (j : s.Idx) (p q : ℕ) (hp : p < s.rank) (hq : q < s.rank) (h : p = q) :
    (j ⟨p, hp⟩).val = (j ⟨q, hq⟩).val := by subst h; rfl

include hlb hln in
/-- The left operand's kept axis reads the result's first coordinate. -/
theorem lhsIdx_kept (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

include hlb hln hrb hrn in
/-- The right operand's kept axis reads the result's second coordinate. -/
theorem rhsIdx_kept (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

end Dims

/-- THE PRODUCT, into the zero accumulator, at `(r, c)`: the sum over the columns `k` of `l (r, k) · w (c, k)`. -/
theorem matmul_zero_apply {M K N : ℕ} (d : DotDims ⟨2, ![M, K]⟩ ⟨2, ![N, K]⟩ ⟨2, ![M, N]⟩)
    (hlb : d.lhsBatch = []) (hln : d.lhsNonContracting = [0]) (hrb : d.rhsBatch = []) (hrn : d.rhsNonContracting = [0])
    (hlc : d.lhsContracting = [1]) (hrc : d.rhsContracting = [1])
    (hrank : d.contr.rank = 1) (hsize : d.contr.size ⟨0, by omega⟩ = K)
    (prec : Option ContractPrecision) (l : FVec Ideal ⟨2, ![M, K]⟩ .f32)
    (w : FVec Ideal ⟨2, ![N, K]⟩ .f32) (r : Fin M) (c : Fin N) :
    matmul d prec l w (constant ⟨2, ![M, N]⟩ .f32 0x00000000#32) (ix2 r c) = ∑ k : Fin K, l (ix2 r k) * w (ix2 c k) := by
  refine (Ideal.matmul_constant_zero_apply d prec l w (ix2 r c)).trans ?_
  refine (Equiv.sum_comp (contrEquiv1 d K hrank hsize).symm _).symm.trans ?_
  refine Finset.sum_congr rfl fun k _ => ?_
  have hk := contrEquiv1_symm_val d K hrank hsize k
  congr 1
  · refine congrArg l (funext fun a => Fin.ext ?_)
    match a with
    | ⟨0, _⟩ => exact lhsIdx_kept d hlb hln (ix2 r c) _
    | ⟨1, _⟩ => exact (d.lhsIdx_val_of_single hlc (ix2 r c) _).trans hk
  · refine congrArg w (funext fun a => Fin.ext ?_)
    match a with
    | ⟨0, _⟩ => exact rhsIdx_kept d hlb hln hrb hrn (ix2 r c) _
    | ⟨1, _⟩ => exact (d.rhsIdx_val_of_single hrc (ix2 r c) _).trans hk

/-- With 1024 rows it is the specification's `mm`. -/
theorem matmul_zero_eq_mm {K N : ℕ} (d : DotDims ⟨2, ![1024, K]⟩ ⟨2, ![N, K]⟩ ⟨2, ![1024, N]⟩)
    (hlb : d.lhsBatch = []) (hln : d.lhsNonContracting = [0]) (hrb : d.rhsBatch = []) (hrn : d.rhsNonContracting = [0])
    (hlc : d.lhsContracting = [1]) (hrc : d.rhsContracting = [1])
    (hrank : d.contr.rank = 1) (hsize : d.contr.size ⟨0, by omega⟩ = K)
    (prec : Option ContractPrecision) (l : FVec Ideal ⟨2, ![1024, K]⟩ .f32) (w : FVec Ideal ⟨2, ![N, K]⟩ .f32) :
    matmul d prec l w (constant ⟨2, ![1024, N]⟩ .f32 0x00000000#32) = mm l w := by
  funext j
  obtain ⟨r, c, rfl⟩ : ∃ (r : Fin 1024) (c : Fin N), j = ix2 r c := ⟨j 0, j 1, eq_ix2 j⟩
  exact matmul_zero_apply d hlb hln hrb hrn hlc hrc hrank hsize prec l w r c

/-- TWO ARRAYS SIDE BY SIDE: the concatenation of two `1024 × 64` arrays along the second axis is the
    specification's `cat`. -/
theorem concatenate_eq_cat (x₁ x₂ : FVec Ideal ⟨2, ![1024, 64]⟩ .f32)
    (h : Shape.Concatenates [(⟨2, ![1024, 64]⟩ : Shape), ⟨2, ![1024, 64]⟩] ⟨2, ![1024, 128]⟩ 1) :
    concatenate ⟨2, ![1024, 128]⟩ 1 [⟨⟨2, ![1024, 64]⟩, x₁⟩, ⟨⟨2, ![1024, 64]⟩, x₂⟩] h = cat x₁ x₂ := by
  funext j
  obtain ⟨r, c, rfl⟩ : ∃ (r : Fin 1024) (c : Fin 128), j = ix2 r c := ⟨j 0, j 1, eq_ix2 j⟩
  by_cases hc : c.val < 64
  · rw [cat_apply_left x₁ x₂ r c hc]
    refine concatenate_pair_apply_left (1 : Fin 2) x₁ x₂ h (ix2 r c) rfl (ix2 r ⟨c.val, hc⟩) fun b => ?_
    match b with
    | ⟨0, _⟩ => rfl
    | ⟨1, _⟩ => rfl
  · rw [cat_apply_right x₁ x₂ r c hc]
    refine concatenate_pair_apply_right (1 : Fin 2) x₁ x₂ h (ix2 r c) rfl rfl
      (ix2 r ⟨c.val - 64, by have := c.isLt; omega⟩) (fun b hb => ?_) ?_
    · match b with
      | ⟨0, _⟩ => rfl
      | ⟨1, _⟩ => exact absurd rfl hb
    · show c.val - 64 + 64 = c.val
      omega

end Cert.Nnue.KEpi

end
-- ==== Proof.KEpilogue.lean ====
/-
  The kernel's epilogue is the specification's `tail`.

  Each of the kernel's five payloads after the first layer is, by unfolding alone, a composition of the three forms read
  index by index elsewhere — the row normalisation with the leaky rectifier, the product with a transposed matrix into a
  zero accumulator, two arrays side by side — so each is the corresponding composition of the specification's `lnl`,
  `mm` and `cat`; the last payload's first row sum arrives as an argument, and it is the row sum of the array it
  normalises.  Composed, they are `tail`.
-/
import proofs.«167364_g6923487281305_cont_9to1_m_76_12_alg».proof.Proof.Gen.KernelIdeal.Skeleton
import proofs.«167364_g6923487281305_cont_9to1_m_76_12_alg».proof.Proof.KEpiLnl
import proofs.«167364_g6923487281305_cont_9to1_m_76_12_alg».proof.Proof.KEpiMm

open scoped BigOperators

noncomputable section

namespace Cert.Nnue.KEpi

open Idealize.ShloMosaic Idealize.ShloMosaic.ValueIdx
open Cert.KernelIdeal Cert.KernelIdeal.Gen

/-- The first payload: the row normalisation and rectifier of a `1024 × 256` array, divisor 256. -/
theorem pay2_eq (v : Vec Ideal S1024x256 .f32) : k0_pay2 (F := Ideal) v = lnl d256 v :=
  (show k0_pay2 (F := Ideal) v
      = lnBlock 0x43800000#32 reduces_S1024x256_S1024 shapeCasts_S1024_S1024x1 broadcasts_S1024x1_S1024x256 v
          (multiReduction .add [1] S1024 v 0x00000000#32 reduces_S1024x256_S1024 (.inl rfl) rfl) from rfl).trans
    (lnBlock_rows_eq 0x43800000#32 reduces_S1024x256_S1024 shapeCasts_S1024_S1024x1 broadcasts_S1024x1_S1024x256 v)

/-- The product of a `1024 × 256` array with the transposed `64 × 256` matrix. -/
theorem mm256_eq (l : FVec Ideal S1024x256 .f32) (w : FVec Ideal S64x256 .f32) :
    matmul (φ₁ := .f32) (φ₂ := .f32) dot_S1024x256_S64x256_S1024x64_1_1_0_0_n_n (some .fp32) l w (constant S1024x64 .f32 0x00000000#32) = mm l w :=
  matmul_zero_eq_mm dot_S1024x256_S64x256_S1024x64_1_1_0_0_n_n rfl rfl rfl rfl rfl rfl rfl rfl (some .fp32) l w

/-- The product of a `1024 × 128` array with the transposed `8 × 128` matrix. -/
theorem mm128_eq (l : FVec Ideal S1024x128 .f32) (w : FVec Ideal S8x128 .f32) :
    matmul (φ₁ := .f32) (φ₂ := .f32) dot_S1024x128_S8x128_S1024x8_1_1_0_0_n_n (some .fp32) l w (constant S1024x8 .f32 0x00000000#32) = mm l w :=
  matmul_zero_eq_mm dot_S1024x128_S8x128_S1024x8_1_1_0_0_n_n rfl rfl rfl rfl rfl rfl rfl rfl (some .fp32) l w

/-- The product of a `1024 × 8` array with the transposed `1 × 8` matrix. -/
theorem mm8_eq (l : FVec Ideal S1024x8 .f32) (w : FVec Ideal S1x8 .f32) :
    matmul (φ₁ := .f32) (φ₂ := .f32) dot_S1024x8_S1x8_S1024x1_1_1_0_0_n_n (some .fp32) l w (constant S1024x1 .f32 0x00000000#32) = mm l w :=
  matmul_zero_eq_mm dot_S1024x8_S1x8_S1024x1_1_1_0_0_n_n rfl rfl rfl rfl rfl rfl rfl rfl (some .fp32) l w

/-- The second payload: the same block on the other accumulator, then the product with the `64 × 256` matrix. -/
theorem pay3_eq (a : Vec Ideal S1024x256 .f32) (w2 : Vec Ideal S64x256 .f32) :
    k0_pay3 (F := Ideal) a w2 = mm (lnl d256 a) w2 := by
  have h : k0_pay3 (F := Ideal) a w2
      = matmul (φ₁ := .f32) (φ₂ := .f32) dot_S1024x256_S64x256_S1024x64_1_1_0_0_n_n (some .fp32) (k0_pay2 (F := Ideal) a) w2
          (constant S1024x64 .f32 0x00000000#32) := rfl
  rw [h, pay2_eq, mm256_eq]

/-- The third payload: the block on the `1024 × 64` product of the first accumulator's side; the product of the second
    accumulator's side and the block on it; the two side by side; the product with the `8 × 128` matrix. -/
theorem pay4_eq (v74 : FVec Ideal S1024x256 .f32) (v76 : FVec Ideal S1024x64 .f32) (w2 : Vec Ideal S64x256 .f32)
    (w3 : Vec Ideal S8x128 .f32) :
    k0_pay4 (F := Ideal) v74 v76 w2 w3 = mm (cat (lnl d64 v76) (lnl d64 (mm v74 w2))) w3 := by
  have h : k0_pay4 (F := Ideal) v74 v76 w2 w3
      = matmul (φ₁ := .f32) (φ₂ := .f32) dot_S1024x128_S8x128_S1024x8_1_1_0_0_n_n (some .fp32)
          (concatenate S1024x128 1
            [⟨S1024x64, lnBlock 0x42800000#32 reduces_S1024x64_S1024 shapeCasts_S1024_S1024x1 broadcasts_S1024x1_S1024x64 v76
                (multiReduction .add [1] S1024 v76 0x00000000#32 reduces_S1024x64_S1024 (.inl rfl) rfl)⟩,
             ⟨S1024x64, lnBlock 0x42800000#32 reduces_S1024x64_S1024 shapeCasts_S1024_S1024x1 broadcasts_S1024x1_S1024x64
                (matmul (φ₁ := .f32) (φ₂ := .f32) dot_S1024x256_S64x256_S1024x64_1_1_0_0_n_n (some .fp32) v74 w2
                  (constant S1024x64 .f32 0x00000000#32))
                (multiReduction .add [1] S1024
                  (matmul (φ₁ := .f32) (φ₂ := .f32) dot_S1024x256_S64x256_S1024x64_1_1_0_0_n_n (some .fp32) v74 w2
                    (constant S1024x64 .f32 0x00000000#32))
                  0x00000000#32 reduces_S1024x64_S1024 (.inl rfl) rfl)⟩]
            concatenates_S1024x64_S1024x64_S1024x128_d1)
          w3 (constant S1024x8 .f32 0x00000000#32) := rfl
  rw [h, lnBlock_rows_eq, lnBlock_rows_eq, mm256_eq, concatenate_eq_cat, mm128_eq] <;> rfl

/-- The fourth payload is the row sums of the third. -/
theorem pay5_eq (v74 : FVec Ideal S1024x256 .f32) (v76 : FVec Ideal S1024x64 .f32) (w2 : Vec Ideal S64x256 .f32)
    (w3 : Vec Ideal S8x128 .f32) :
    k0_pay5 (F := Ideal) v74 v76 w2 w3
      = multiReduction .add [1] S1024 (k0_pay4 (F := Ideal) v74 v76 w2 w3) 0x00000000#32 reduces_S1024x8_S1024 (.inl rfl) rfl :=
  rfl

/-- The last payload, given the row sums of the array it normalises: the block on a `1024 × 8` array, divisor 8, then
    the product with the `1 × 8` matrix. -/
theorem pay1_eq (x : FVec Ideal S1024x8 .f32) (w4 : Vec Ideal S1x8 .f32) :
    k0_pay1 (F := Ideal) x (multiReduction .add [1] S1024 x 0x00000000#32 reduces_S1024x8_S1024 (.inl rfl) rfl) w4
      = mm (lnl d8 x) w4 := by
  have h : k0_pay1 (F := Ideal) x (multiReduction .add [1] S1024 x 0x00000000#32 reduces_S1024x8_S1024 (.inl rfl) rfl) w4
      = matmul (φ₁ := .f32) (φ₂ := .f32) dot_S1024x8_S1x8_S1024x1_1_1_0_0_n_n (some .fp32)
          (lnBlock 0x41000000#32 reduces_S1024x8_S1024 shapeCasts_S1024_S1024x1 broadcasts_S1024x1_S1024x8 x
            (multiReduction .add [1] S1024 x 0x00000000#32 reduces_S1024x8_S1024 (.inl rfl) rfl))
          w4 (constant S1024x1 .f32 0x00000000#32) := rfl
  rw [h, lnBlock_rows_eq, mm8_eq] <;> rfl

/-- THE EPILOGUE IS THE SPECIFICATION'S `tail`: `a` is the first accumulator, `b` the second. -/
theorem epilogue_eq (a b : Vec Ideal S1024x256 .f32) (w2 : Vec Ideal S64x256 .f32) (w3 : Vec Ideal S8x128 .f32)
    (w4 : Vec Ideal S1x8 .f32) :
    k0_pay1 (F := Ideal) (k0_pay4 (k0_pay2 b) (k0_pay3 a w2) w2 w3) (k0_pay5 (k0_pay2 b) (k0_pay3 a w2) w2 w3) w4
      = tail a b w2 w3 w4 := by
  rw [pay5_eq, pay1_eq, pay4_eq, pay3_eq, pay2_eq] <;> rfl

end Cert.Nnue.KEpi

end
-- ==== Proof.KFinal.lean ====
/-
  The kernel's result array after the run is the specification `G` of the argument arrays.

  The output block is stored at the last grid point only, from the two accumulators as they stand there — the first as the
  point before left it, the second just updated — and the three small weight matrices, whose blocks are the whole
  arrays.  That one point writes the block back, and the block is the whole 1024 × 1 result array.
-/
import proofs.«167364_g6923487281305_cont_9to1_m_76_12_alg».proof.Proof.KTotal
import proofs.«167364_g6923487281305_cont_9to1_m_76_12_alg».proof.Proof.Gen.KernelIdeal.Value
import proofs.«167364_g6923487281305_cont_9to1_m_76_12_alg».proof.Proof.KEpilogue

open scoped BigOperators

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Value

variable (m : (ℓ : Loc nD τ sig) → Buf (Elt Ideal) ℓ) (ρ : Dev nD → PrngReg)

/-- The last grid point. -/
abbrev t19 : Fin cfg0.N := ⟨19, by rw [show cfg0.N = 20 from N_0]; decide⟩

/-! ## The small weight matrices: each window's block is the whole array -/

theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)

theorem blk2_eq (c : Dev nD) (t : Fin cfg0.N) :
    (iblk m c 2 t : Vec Ideal S64x256 .f32) = m ((c : Thread nD τ).loc main_arg2) := by
  funext j
  unfold iblk
  rw [View.read_apply]
  show V m c main_arg2 _ = m (c.tc.loc main_arg2) j
  unfold V
  refine congrArg _ (funext fun a => Fin.ext ?_)
  match a with
  | ⟨0, _⟩ => show win0_2.index t 0 * 64 + 1 * (j 0).val = (j 0).val; rw [(index2 t).1]; omega
  | ⟨1, _⟩ => show win0_2.index t 1 * 256 + 1 * (j 1).val = (j 1).val; rw [(index2 t).2]; omega

theorem blk3_eq (c : Dev nD) (t : Fin cfg0.N) :
    (iblk m c 3 t : Vec Ideal S8x128 .f32) = m ((c : Thread nD τ).loc main_arg3) := by
  funext j
  unfold iblk
  rw [View.read_apply]
  show V m c main_arg3 _ = m (c.tc.loc main_arg3) j
  unfold V
  refine congrArg _ (funext fun a => Fin.ext ?_)
  match a with
  | ⟨0, _⟩ => show win0_3.index t 0 * 8 + 1 * (j 0).val = (j 0).val; rw [(index3 t).1]; omega
  | ⟨1, _⟩ => show win0_3.index t 1 * 128 + 1 * (j 1).val = (j 1).val; rw [(index3 t).2]; omega

theorem blk4_eq (c : Dev nD) (t : Fin cfg0.N) :
    (iblk m c 4 t : Vec Ideal S1x8 .f32) = m ((c : Thread nD τ).loc main_arg4) := by
  funext j
  unfold iblk
  rw [View.read_apply]
  show V m c main_arg4 _ = m (c.tc.loc main_arg4) j
  unfold V
  refine congrArg _ (funext fun a => Fin.ext ?_)
  match a with
  | ⟨0, _⟩ => show win0_4.index t 0 * 1 + 1 * (j 0).val = (j 0).val; rw [(index4 t).1]; omega
  | ⟨1, _⟩ => show win0_4.index t 1 * 8 + 1 * (j 1).val = (j 1).val; rw [(index4 t).2]; omega

/-! ## The accumulators after the last point -/

theorem acc0_last_eq (c : Dev nD) :
    (outsAt0 m c t19.val t19.isLt).2.1
      = Cert.Nnue.layer1 0 (by omega) (m ((c : Thread nD τ).loc main_arg0)) (m ((c : Thread nD τ).loc main_arg1)) := by
  funext i
  obtain ⟨r, cc, rfl⟩ : ∃ (r : Fin 1024) (cc : Fin 256), i = ix2 r cc := ⟨i 0, i 1, eq_ix2 i⟩
  exact (Accum.acc0_after m c 19 t19.isLt (ix2 r cc)).trans (Total.total0 m c r cc)

theorem acc1_last_eq (c : Dev nD) :
    (outsAt0 m c t19.val t19.isLt).2.2
      = Cert.Nnue.layer1 40960 (by omega) (m ((c : Thread nD τ).loc main_arg0)) (m ((c : Thread nD τ).loc main_arg1)) := by
  funext i
  obtain ⟨r, cc, rfl⟩ : ∃ (r : Fin 1024) (cc : Fin 256), i = ix2 r cc := ⟨i 0, i 1, eq_ix2 i⟩
  exact (Accum.acc1_after m c 19 t19.isLt (ix2 r cc)).trans (Total.total1 m c r cc)

/-! ## The output block at the last point -/

/-- The specification of the argument arrays, as contents of the result array. -/
abbrev result (c : Dev nD) : Buf (Elt Ideal) ((c : Thread nD τ).loc main_v0) :=
  Cert.Nnue.G (m ((c : Thread nD τ).loc main_arg0)) (m ((c : Thread nD τ).loc main_arg1))
    (m ((c : Thread nD τ).loc main_arg2)) (m ((c : Thread nD τ).loc main_arg3)) (m ((c : Thread nD τ).loc main_arg4))

/-- What the last point stores is the rest of the network applied to the accumulators as they stand after it. -/
theorem out19_payload (c : Dev nD) :
    (outsAt0 m c t19.val t19.isLt).1
      = k0_pay1 (F := Ideal)
          (k0_pay4 (k0_pay2 (outsAt0 m c t19.val t19.isLt).2.2) (k0_pay3 (outsAt0 m c t19.val t19.isLt).2.1 (iblk m c 2 t19))
            (iblk m c 2 t19) (iblk m c 3 t19))
          (k0_pay5 (k0_pay2 (outsAt0 m c t19.val t19.isLt).2.2) (k0_pay3 (outsAt0 m c t19.val t19.isLt).2.1 (iblk m c 2 t19))
            (iblk m c 2 t19) (iblk m c 3 t19))
          (iblk m c 4 t19) := by
  have hD := outsAt0_D m c t19 (by decide) (by decide) (by decide) (by decide)
  rw [hD]
  dsimp only
  rw [Pieces.out_last, Pieces.acc1_last]
  rfl

theorem out19 (c : Dev nD)  : (outsAt0 m c t19.val t19.isLt).1 = result m c := by
  rw [out19_payload, Cert.Nnue.KEpi.epilogue_eq, acc0_last_eq, acc1_last_eq, blk2_eq, blk3_eq, blk4_eq]
  rfl

/-! ## The one write-back, and the run -/

theorem flushed_eq (c : Dev nD)  (t : Fin cfg0.N) (hf : (cfg0.win 5).flush t = true) :
    (dats m 0 c).flushed 5 t = ((cfg0.win 5).blk t).view.read (Elt Ideal) (result m c) := by
  have hN : cfg0.N = 20 := N_0
  have h19 : t.val = 19 := by have := (flush0_5 t).mp hf; have := t.isLt; omega
  obtain rfl : t = t19 := Fin.ext h19
  rw [flushed5, out19 m c ]
  have hz' : (fun a => win0_5.index t19 a * main_v0.ty.shape.size a) = fun _ => 0 :=
    funext fun a => by fin_cases a <;> decide +kernel
  exact (Memref.read_access_unit_zero (Elt Ideal) main_v0 hz' (fun a => by rw [congrFun hz' a]; simp) (result m c)).symm

theorem final (c : Dev nD)  : (dats m 0 c).arrAt 5 cfg0.N = result m c :=
  (dats m 0 c).arrAt_eq_of_cover 5 (result m c) (flushed_eq m c ) fun i =>
    ⟨t19, (flush0_5 t19).mpr (by decide), by
      show i ∈ ((View.whole main_v0).slice (win0_5.rect t19)).set
      rw [View.set_slice_whole, Rect.mem_set_unit]
      intro a
      have h0 : (i 0 : Nat) < 1024 := (i 0).isLt
      have h1 : (i 1 : Nat) < 1 := (i 1).isLt
      match a with
      | ⟨0, _⟩ =>
        show win0_5.index t19 0 * win0_5.size 0 ≤ (i 0 : Nat) ∧ (i 0 : Nat) < win0_5.index t19 0 * win0_5.size 0 + win0_5.xsize (grid0.coords t19) 0
        rw [show win0_5.index t19 0 * win0_5.size 0 = 0 from by decide +kernel, show win0_5.xsize (grid0.coords t19) 0 = 1024 from by decide +kernel]
        omega
      | ⟨1, _⟩ =>
        show win0_5.index t19 1 * win0_5.size 1 ≤ (i 1 : Nat) ∧ (i 1 : Nat) < win0_5.index t19 1 * win0_5.size 1 + win0_5.xsize (grid0.coords t19) 1
        rw [show win0_5.index t19 1 * win0_5.size 1 = 0 from by decide +kernel, show win0_5.xsize (grid0.coords t19) 1 = 1 from by decide +kernel]
        omega⟩

/-- The kernel's run: the result array ends at the specification of the argument arrays, which end unchanged. -/
theorem run  : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c ), (h c).2⟩) (run_blocks m ρ)

end Cert.KernelIdeal.Final

end
-- ==== Proof.RefOps.lean ====
/-
  The reference's non-pointwise operations read at an index given by coordinates.

  A vector of a entries broadcast to an a × 1 column holds entry i at (i, 0); an a × 1 column broadcast to a × b holds
  at (p, c) the column's entry (p, 0); a scalar broadcast to a vector or a matrix holds the scalar everywhere.  The sum
  of an a × b array along its second axis, started from the zero word, is at row r the sum over the b columns of the
  entries of that row.  The product of an m × k array with the transpose of an n × k array is at (r, c) the sum over the
  k columns of the products of the two rows' entries.  A column range cut out of a matrix reads the matrix at the
  shifted column, and two 1024 × 64 arrays placed side by side read the first below column 64 and the second from
  there on.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

open scoped BigOperators

namespace Cert.Nnue.Ref

open Idealize.ShloMosaic Idealize.ShloMosaic.ValueIdx

variable {α : Type}

/-- A vector broadcast to a column, [a] → [a, 1] along axis 0, reads entry i at (i, 0). -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column broadcast along its unit axis, [a, 1] → [a, b], reads at (p, c) the column's entry (p, 0). -/
theorem bcast_col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast to a vector reads the scalar at every entry. -/
theorem bcast_scalar_vec_apply {a : ℕ} (x : (⟨0, ![]⟩ : Shape).Idx → α)
    (h : (⟨0, ![]⟩ : Shape).BroadcastsInDim ⟨1, ![a]⟩ (![] : Fin 0 → Fin 1)) (i : Fin a) :
    broadcastInDim ⟨1, ![a]⟩ (![] : Fin 0 → Fin 1) h x (ix1 i) = x ix0 :=
  broadcastInDim_apply _ h x (ix1 i) ix0 fun ax => ax.elim0

/-- A scalar broadcast to a matrix reads the scalar at every entry. -/
theorem bcast_scalar_mat_apply {a b : ℕ} (x : (⟨0, ![]⟩ : Shape).Idx → α)
    (h : (⟨0, ![]⟩ : Shape).BroadcastsInDim ⟨2, ![a, b]⟩ (![] : Fin 0 → Fin 2)) (r : Fin a) (c : Fin b) :
    broadcastInDim ⟨2, ![a, b]⟩ (![] : Fin 0 → Fin 2) h x (ix2 r c) = x ix0 :=
  broadcastInDim_apply _ h x (ix2 r c) ix0 fun ax => ax.elim0

/-- ROW SUMS on the host. The sum of an a × b array along its second axis, started from the zero word, is at row r the
    sum over the columns c of the entries (r, c). -/
theorem reduceAdd_rows_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x (constant (F := Ideal) ⟨0, ![]⟩ .f32 0x00000000#32) h' hu (ix1 r) = ∑ c : Fin b, x (ix2 r c) := by
  refine (Ideal.hostReduceAdd_single h' h x (Ideal.ofBits .f32 0x00000000#32) (ix1 r)).trans ?_
  rw [Ideal.ofBits_zero_f32, zero_add]
  refine Finset.sum_congr rfl fun c _ => congrArg x (funext fun ax => Fin.ext ?_)
  rw [h.lift_val]
  unfold Shape.Reduces.liftVal
  match ax with
  | ⟨0, _⟩ => rfl
  | ⟨1, _⟩ => rfl

/-- THE PRODUCT WITH A TRANSPOSED MATRIX. The plain product of an m × k array with the transpose of an n × k array is, at
    (r, c), the sum over the k columns of the products of row r of the first and row c of the second. -/
theorem dot_transposed_apply {m k n : ℕ} (d : DotDims ⟨2, ![m, k]⟩ ⟨2, ![k, n]⟩ ⟨2, ![m, n]⟩) (hd : d = DotDims.plain m k n)
    (A : FVec Ideal ⟨2, ![m, k]⟩ .f32) (W : FVec Ideal ⟨2, ![n, k]⟩ .f32)
    (ht : (⟨2, ![n, k]⟩ : Shape).Transposes [1, 0] ⟨2, ![k, n]⟩) (r : Fin m) (c : Fin n) :
    Host.dotGeneral d none A (transpose ⟨2, ![k, n]⟩ [1, 0] W ht) (ix2 r c) = ∑ q : Fin k, A (ix2 r q) * W (ix2 c q) := by
  subst hd
  refine (StackMember.dotGeneral_plain_apply none A (transpose ⟨2, ![k, n]⟩ [1, 0] W ht) r c).trans ?_
  exact Finset.sum_congr rfl fun q _ => congrArg (A (ix2 r q) * ·) (transpose_ix2_apply W ht q c)

/-- TWO ARRAYS SIDE BY SIDE, left part: below column 64 the concatenation reads the first array. -/
theorem concat_cols_apply_left (x₁ x₂ : (⟨2, ![1024, 64]⟩ : Shape).Idx → α)
    (h : Shape.Concatenates [(⟨2, ![1024, 64]⟩ : Shape), ⟨2, ![1024, 64]⟩] ⟨2, ![1024, 128]⟩ 1)
    (r : Fin 1024) (c : Fin 128) (hc : c.val < 64) :
    concatenate ⟨2, ![1024, 128]⟩ 1 [⟨⟨2, ![1024, 64]⟩, x₁⟩, ⟨⟨2, ![1024, 64]⟩, x₂⟩] h (ix2 r c) = x₁ (ix2 r ⟨c.val, hc⟩) := by
  refine concatenate_pair_apply_left (1 : Fin 2) x₁ x₂ h (ix2 r c) rfl (ix2 r ⟨c.val, hc⟩) fun b => ?_
  match b with
  | ⟨0, _⟩ => rfl
  | ⟨1, _⟩ => rfl

/-- TWO ARRAYS SIDE BY SIDE, right part: from column 64 on the concatenation reads the second array, 64 columns back. -/
theorem concat_cols_apply_right (x₁ x₂ : (⟨2, ![1024, 64]⟩ : Shape).Idx → α)
    (h : Shape.Concatenates [(⟨2, ![1024, 64]⟩ : Shape), ⟨2, ![1024, 64]⟩] ⟨2, ![1024, 128]⟩ 1)
    (r : Fin 1024) (c : Fin 128) (hc : ¬c.val < 64) :
    concatenate ⟨2, ![1024, 128]⟩ 1 [⟨⟨2, ![1024, 64]⟩, x₁⟩, ⟨⟨2, ![1024, 64]⟩, x₂⟩] h (ix2 r c)
      = x₂ (ix2 r ⟨c.val - 64, by have := c.isLt; omega⟩) := by
  refine concatenate_pair_apply_right (1 : Fin 2) x₁ x₂ h (ix2 r c) rfl rfl (ix2 r ⟨c.val - 64, by have := c.isLt; omega⟩)
    (fun b hb => ?_) ?_
  · match b with
    | ⟨0, _⟩ => rfl
    | ⟨1, _⟩ => exact absurd rfl hb
  · show c.val - 64 + 64 = c.val
    omega

end Cert.Nnue.Ref
-- ==== Proof.RefBlock.lean ====
/-
  The row normalisation and the leaky rectifier, as the reference writes them, read at the specification.

  For a 1024 × n array a and a divisor word w the reference forms the row sums, divides them by the broadcast
  divisor, and keeps the quotient as a 1024 × 1 column (the mean); it subtracts that column, broadcast along the
  rows, from a; it sums the squared differences along each row, divides by the divisor, takes the square root and
  keeps it as a column; and it divides the differences by that column.  Entry (r, c) of the result is
  (a (r, c) − mean r) / √(msd r), the specification's normed.  The rectifier is max (s · y) y entry by entry.
-/
import proofs.«167364_g6923487281305_cont_9to1_m_76_12_alg».proof.Proof.Spec
import proofs.«167364_g6923487281305_cont_9to1_m_76_12_alg».proof.Proof.RefOps

open scoped BigOperators

noncomputable section

namespace Cert.Nnue.Ref

open Idealize.ShloMosaic Idealize.ShloMosaic.ValueIdx

/-- The row-normalised array: entry j is the specification's normed at j's coordinates. -/
def normedArr {n : ℕ} (d : EReal) (a : Arr 1024 n) : Arr 1024 n := fun j => normed d a (j 0) (j 1)

theorem normedArr_apply {n : ℕ} (d : EReal) (a : Arr 1024 n) (r : Fin 1024) (c : Fin n) :
    normedArr d a (ix2 r c) = normed d a r c := rfl

section Block

variable {n : ℕ} (a : FVec Ideal ⟨2, ![1024, n]⟩ .f32) (w : BitVec 32)
  (hr' : (⟨2, ![1024, n]⟩ : Shape).ReducesTo [1] ⟨1, ![1024]⟩) (hr : (⟨2, ![1024, n]⟩ : Shape).Reduces [1] ⟨1, ![1024]⟩)
  (hu : 0 < (⟨0, ![]⟩ : Shape).numel)
  (hb0 : (⟨0, ![]⟩ : Shape).BroadcastsInDim ⟨1, ![1024]⟩ (![] : Fin 0 → Fin 1))
  (hb1 : (⟨1, ![1024]⟩ : Shape).BroadcastsInDim ⟨2, ![1024, 1]⟩ (![0] : Fin 1 → Fin 2))
  (hb2 : (⟨2, ![1024, 1]⟩ : Shape).BroadcastsInDim ⟨2, ![1024, n]⟩ (![0, 1] : Fin 2 → Fin 2))

include hr in
/-- A row sum divided by the broadcast divisor, at row r. -/
theorem rowquot_apply (x : FVec Ideal ⟨2, ![1024, n]⟩ .f32) (r : Fin 1024) :
    Host.divf (Host.reduceAdd x (constant (F := Ideal) ⟨0, ![]⟩ .f32 0x00000000#32) hr' hu)
        (broadcastInDim ⟨1, ![1024]⟩ (![] : Fin 0 → Fin 1) hb0 (constant (F := Ideal) ⟨0, ![]⟩ .f32 w)) (ix1 r)
      = Ideal.div (∑ c : Fin n, x (ix2 r c)) (Ideal.ofBits .f32 w) := by
  show Ideal.div (Host.reduceAdd x (constant (F := Ideal) ⟨0, ![]⟩ .f32 0x00000000#32) hr' hu (ix1 r))
      (broadcastInDim ⟨1, ![1024]⟩ (![] : Fin 0 → Fin 1) hb0 (constant (F := Ideal) ⟨0, ![]⟩ .f32 w) (ix1 r)) = _
  rw [reduceAdd_rows_apply x hr' hr hu r, bcast_scalar_vec_apply _ hb0 r]
  rfl

include hr in
/-- The mean column at (r, 0) is the specification's mean of row r. -/
theorem mean_col_apply (r : Fin 1024) (u : Fin 1) :
    broadcastInDim ⟨2, ![1024, 1]⟩ (![0] : Fin 1 → Fin 2) hb1
        (Host.divf (Host.reduceAdd a (constant (F := Ideal) ⟨0, ![]⟩ .f32 0x00000000#32) hr' hu)
          (broadcastInDim ⟨1, ![1024]⟩ (![] : Fin 0 → Fin 1) hb0 (constant (F := Ideal) ⟨0, ![]⟩ .f32 w))) (ix2 r u)
      = mean (Ideal.ofBits .f32 w) a r :=
  (bcast_vec_col_apply _ hb1 r u).trans (rowquot_apply w hr' hr hu hb0 a r)

/-- The array less a column broadcast along the rows, at (r, c). -/
theorem centered_apply (m : FVec Ideal ⟨2, ![1024, 1]⟩ .f32) (r : Fin 1024) (c : Fin n) :
    subf a (broadcastInDim ⟨2, ![1024, n]⟩ (![0, 1] : Fin 2 → Fin 2) hb2 m) (ix2 r c) = a (ix2 r c) - m (ix2 r (0 : Fin 1)) := by
  show a (ix2 r c) - broadcastInDim ⟨2, ![1024, n]⟩ (![0, 1] : Fin 2 → Fin 2) hb2 m (ix2 r c) = _
  rw [bcast_col_mat_apply m hb2 r c]

include hr in
/-- THE BLOCK. The reference's normalised array is the specification's. The mean column m and the centred array q are
    taken as variables with their defining equations, as the reference names them. -/
theorem normed_block (m : FVec Ideal ⟨2, ![1024, 1]⟩ .f32)
    (hm : m = broadcastInDim ⟨2, ![1024, 1]⟩ (![0] : Fin 1 → Fin 2) hb1
        (Host.divf (Host.reduceAdd a (constant (F := Ideal) ⟨0, ![]⟩ .f32 0x00000000#32) hr' hu)
          (broadcastInDim ⟨1, ![1024]⟩ (![] : Fin 0 → Fin 1) hb0 (constant (F := Ideal) ⟨0, ![]⟩ .f32 w))))
    (q : FVec Ideal ⟨2, ![1024, n]⟩ .f32)
    (hq : q = subf a (broadcastInDim ⟨2, ![1024, n]⟩ (![0, 1] : Fin 2 → Fin 2) hb2 m)) :
    Host.divf (subf a (broadcastInDim ⟨2, ![1024, n]⟩ (![0, 1] : Fin 2 → Fin 2) hb2 m))
        (broadcastInDim ⟨2, ![1024, n]⟩ (![0, 1] : Fin 2 → Fin 2) hb2
          (broadcastInDim ⟨2, ![1024, 1]⟩ (![0] : Fin 1 → Fin 2) hb1
            (Host.sqrt (Host.divf (Host.reduceAdd (mulf q q) (constant (F := Ideal) ⟨0, ![]⟩ .f32 0x00000000#32) hr' hu)
              (broadcastInDim ⟨1, ![1024]⟩ (![] : Fin 0 → Fin 1) hb0 (constant (F := Ideal) ⟨0, ![]⟩ .f32 w))))))
      = normedArr (Ideal.ofBits .f32 w) a := by
  funext j
  obtain ⟨r, c, rfl⟩ : ∃ (r : Fin 1024) (c : Fin n), j = ix2 r c := ⟨j 0, j 1, eq_ix2 j⟩
  have hmean : ∀ r : Fin 1024, m (ix2 r (0 : Fin 1)) = mean (Ideal.ofBits .f32 w) a r := fun r => by
    rw [hm]; exact mean_col_apply a w hr' hr hu hb0 hb1 r 0
  have hqq : ∀ (r : Fin 1024) (c : Fin n), q (ix2 r c) = a (ix2 r c) - mean (Ideal.ofBits .f32 w) a r := fun r c => by
    rw [hq, centered_apply a hb2 m r c, hmean r]
  show Ideal.div (subf a (broadcastInDim ⟨2, ![1024, n]⟩ (![0, 1] : Fin 2 → Fin 2) hb2 m) (ix2 r c))
      (broadcastInDim ⟨2, ![1024, n]⟩ (![0, 1] : Fin 2 → Fin 2) hb2
          (broadcastInDim ⟨2, ![1024, 1]⟩ (![0] : Fin 1 → Fin 2) hb1
            (Host.sqrt (Host.divf (Host.reduceAdd (mulf q q) (constant (F := Ideal) ⟨0, ![]⟩ .f32 0x00000000#32) hr' hu)
              (broadcastInDim ⟨1, ![1024]⟩ (![] : Fin 0 → Fin 1) hb0 (constant (F := Ideal) ⟨0, ![]⟩ .f32 w))))) (ix2 r c))
      = normed (Ideal.ofBits .f32 w) a r c
  rw [centered_apply a hb2 m r c, hmean r, bcast_col_mat_apply _ hb2 r c, bcast_vec_col_apply _ hb1 r (0 : Fin 1)]
  show Ideal.div _ (Ideal.sqrt
      (Host.divf (Host.reduceAdd (mulf q q) (constant (F := Ideal) ⟨0, ![]⟩ .f32 0x00000000#32) hr' hu)
        (broadcastInDim ⟨1, ![1024]⟩ (![] : Fin 0 → Fin 1) hb0 (constant (F := Ideal) ⟨0, ![]⟩ .f32 w)) (ix1 r))) = _
  rw [rowquot_apply w hr' hr hu hb0 (mulf q q) r]
  unfold normed msd
  refine congrArg (fun s => Ideal.div _ (Ideal.sqrt (Ideal.div s _))) (Finset.sum_congr rfl fun k _ => ?_)
  show q (ix2 r k) * q (ix2 r k) = _
  rw [hqq r k]

end Block

/-- THE RECTIFIER. max (s · y) y with the slope broadcast from its word, on a normalised array, is the
    specification's lnl. -/
theorem rect_normed {n : ℕ} (d : EReal) (a : Arr 1024 n)
    (hb : (⟨0, ![]⟩ : Shape).BroadcastsInDim ⟨2, ![1024, n]⟩ (![] : Fin 0 → Fin 2)) :
    maximumf (mulf (broadcastInDim ⟨2, ![1024, n]⟩ (![] : Fin 0 → Fin 2) hb (constant (F := Ideal) ⟨0, ![]⟩ .f32 0x3D4CCCCD#32))
        (normedArr d a : FVec Ideal ⟨2, ![1024, n]⟩ .f32)) (normedArr d a : FVec Ideal ⟨2, ![1024, n]⟩ .f32)
      = lnl d a := by
  funext j
  obtain ⟨r, c, rfl⟩ : ∃ (r : Fin 1024) (c : Fin n), j = ix2 r c := ⟨j 0, j 1, eq_ix2 j⟩
  show max (broadcastInDim ⟨2, ![1024, n]⟩ (![] : Fin 0 → Fin 2) hb (constant (F := Ideal) ⟨0, ![]⟩ .f32 0x3D4CCCCD#32) (ix2 r c)
      * normedArr d a (ix2 r c)) (normedArr d a (ix2 r c)) = lnlAt d a r c
  rw [bcast_scalar_mat_apply _ hb r c]
  rfl

end Cert.Nnue.Ref

end
-- ==== Proof.RefStages.lean ====
/-
  The reference's intermediate arrays, stage by stage, read at the specification.

  The two first-layer products are the specification's layer1 on the two halves of the input; each normalised array is
  the specification's normed of the array before it; each later product takes the rectified normalised array and is
  the specification's mm.  Every stage is stated for the reference's own named term and uses the stages before it.
-/
import proofs.«167364_g6923487281305_cont_9to1_m_76_12_alg».proof.Proof.Gen.ReferenceIdeal.Run
import proofs.«167364_g6923487281305_cont_9to1_m_76_12_alg».proof.Proof.Spec
import proofs.«167364_g6923487281305_cont_9to1_m_76_12_alg».proof.Proof.RefOps
import proofs.«167364_g6923487281305_cont_9to1_m_76_12_alg».proof.Proof.RefBlock

open scoped BigOperators

noncomputable section

namespace Cert.Nnue.Ref

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

variable (V0 : Valuation τ sig (Elt Ideal))

/-- The five arguments as arrays of extended reals. -/
abbrev argX : Arr 1024 81920 := V0 (Proc.devRef .tc main_arg0)
abbrev argW1 : Arr 256 40960 := V0 (Proc.devRef .tc main_arg1)
abbrev argW2 : Arr 64 256 := V0 (Proc.devRef .tc main_arg2)
abbrev argW3 : Arr 8 128 := V0 (Proc.devRef .tc main_arg3)
abbrev argW4 : Arr 1 8 := V0 (Proc.devRef .tc main_arg4)

/-- The two first-layer arrays of the specification. -/
abbrev specA : Arr 1024 256 := layer1 0 (by omega) (argX V0) (argW1 V0)
abbrev specB : Arr 1024 256 := layer1 40960 (by omega) (argX V0) (argW1 V0)

/-! ## The first layer -/

theorem v3_eq : res_main_v3 (F := Ideal) V0 = specA V0 := by
  funext j
  obtain ⟨r, c, rfl⟩ : ∃ (r : Fin 1024) (c : Fin 256), j = ix2 r c := ⟨j 0, j 1, eq_ix2 j⟩
  unfold res_main_v3
  refine (dot_transposed_apply _ rfl _ (V0 (Proc.devRef .tc main_arg1)) transposes_S256x40960_S40960x256_1_0 r c).trans ?_
  refine Eq.trans ?_ (layer1_apply 0 (by omega) (argX V0) (argW1 V0) r c).symm
  refine Finset.sum_congr rfl fun q _ => congrArg (· * _) ?_
  exact slice2_axis1_eq 0 _ slices_S1024x81920_S1024x40960_0_0 r q

theorem v24_eq : res_main_v24 (F := Ideal) V0 = specB V0 := by
  funext j
  obtain ⟨r, c, rfl⟩ : ∃ (r : Fin 1024) (c : Fin 256), j = ix2 r c := ⟨j 0, j 1, eq_ix2 j⟩
  unfold res_main_v24
  refine (dot_transposed_apply _ rfl _ (V0 (Proc.devRef .tc main_arg1)) transposes_S256x40960_S40960x256_1_0 r c).trans ?_
  refine Eq.trans ?_ (layer1_apply 40960 (by omega) (argX V0) (argW1 V0) r c).symm
  refine Finset.sum_congr rfl fun q _ => congrArg (· * _) ?_
  exact slice2_axis1_eq 40960 _ slices_S1024x81920_S1024x40960_0_40960 r q

/-! ## The first normalisation -/

theorem v19_eq : res_main_v19 (F := Ideal) V0 = normedArr d256 (specA V0) :=
  (normed_block (res_main_v3 V0) 0x43800000#32 reducesTo_S1024x256_S1024_d1 (by decide) h_S_ bcast_S_S1024
    bcast_S1024_S1024x1_0 bcast_S1024x1_S1024x256_0_1 (res_main_v7 V0) rfl (res_main_v9 V0) rfl).trans
    (congrArg (normedArr d256) (v3_eq V0))

theorem v40_eq : res_main_v40 (F := Ideal) V0 = normedArr d256 (specB V0) :=
  (normed_block (res_main_v24 V0) 0x43800000#32 reducesTo_S1024x256_S1024_d1 (by decide) h_S_ bcast_S_S1024
    bcast_S1024_S1024x1_0 bcast_S1024x1_S1024x256_0_1 (res_main_v28 V0) rfl (res_main_v30 V0) rfl).trans
    (congrArg (normedArr d256) (v24_eq V0))

/-! ## The second layer -/

theorem v45_eq : res_main_v45 (F := Ideal) V0 = mm (lnl d256 (specA V0)) (argW2 V0) := by
  funext j
  obtain ⟨r, c, rfl⟩ : ∃ (r : Fin 1024) (c : Fin 64), j = ix2 r c := ⟨j 0, j 1, eq_ix2 j⟩
  unfold res_main_v45
  rw [v19_eq V0, rect_normed d256 (specA V0) bcast_S_S1024x256]
  exact dot_transposed_apply _ rfl _ (V0 (Proc.devRef .tc main_arg2)) transposes_S64x256_S256x64_1_0 r c

theorem v66_eq : res_main_v66 (F := Ideal) V0 = mm (lnl d256 (specB V0)) (argW2 V0) := by
  funext j
  obtain ⟨r, c, rfl⟩ : ∃ (r : Fin 1024) (c : Fin 64), j = ix2 r c := ⟨j 0, j 1, eq_ix2 j⟩
  unfold res_main_v66
  rw [v40_eq V0, rect_normed d256 (specB V0) bcast_S_S1024x256]
  exact dot_transposed_apply _ rfl _ (V0 (Proc.devRef .tc main_arg2)) transposes_S64x256_S256x64_1_0 r c

/-! ## The second normalisation -/

theorem v61_eq : res_main_v61 (F := Ideal) V0 = normedArr d64 (mm (lnl d256 (specA V0)) (argW2 V0)) :=
  (normed_block (res_main_v45 V0) 0x42800000#32 reducesTo_S1024x64_S1024_d1 (by decide) h_S_ bcast_S_S1024
    bcast_S1024_S1024x1_0 bcast_S1024x1_S1024x64_0_1 (res_main_v49 V0) rfl (res_main_v51 V0) rfl).trans
    (congrArg (normedArr d64) (v45_eq V0))

theorem v82_eq : res_main_v82 (F := Ideal) V0 = normedArr d64 (mm (lnl d256 (specB V0)) (argW2 V0)) :=
  (normed_block (res_main_v66 V0) 0x42800000#32 reducesTo_S1024x64_S1024_d1 (by decide) h_S_ bcast_S_S1024
    bcast_S1024_S1024x1_0 bcast_S1024x1_S1024x64_0_1 (res_main_v70 V0) rfl (res_main_v72 V0) rfl).trans
    (congrArg (normedArr d64) (v66_eq V0))

/-! ## The third layer, on the two halves side by side -/

theorem v88_eq : res_main_v88 (F := Ideal) V0
    = mm (cat (lnl d64 (mm (lnl d256 (specA V0)) (argW2 V0))) (lnl d64 (mm (lnl d256 (specB V0)) (argW2 V0)))) (argW3 V0) := by
  funext j
  obtain ⟨r, c, rfl⟩ : ∃ (r : Fin 1024) (c : Fin 8), j = ix2 r c := ⟨j 0, j 1, eq_ix2 j⟩
  unfold res_main_v88
  rw [v61_eq V0, v82_eq V0, rect_normed d64 _ bcast_S_S1024x64, rect_normed d64 _ bcast_S_S1024x64]
  refine (dot_transposed_apply _ rfl _ (V0 (Proc.devRef .tc main_arg3)) transposes_S8x128_S128x8_1_0 r c).trans ?_
  rw [mm_apply]
  refine Finset.sum_congr rfl fun q _ => congrArg (· * _) ?_
  by_cases hq : q.val < 64
  · rw [cat_apply_left _ _ r q hq]
    exact concat_cols_apply_left _ _ concatenates_S1024x64_S1024x64_S1024x128_d1 r q hq
  · rw [cat_apply_right _ _ r q hq]
    exact concat_cols_apply_right _ _ concatenates_S1024x64_S1024x64_S1024x128_d1 r q hq

/-! ## The third normalisation -/

theorem v104_eq : res_main_v104 (F := Ideal) V0
    = normedArr d8 (mm (cat (lnl d64 (mm (lnl d256 (specA V0)) (argW2 V0))) (lnl d64 (mm (lnl d256 (specB V0)) (argW2 V0)))) (argW3 V0)) :=
  (normed_block (res_main_v88 V0) 0x41000000#32 reducesTo_S1024x8_S1024_d1 (by decide) h_S_ bcast_S_S1024
    bcast_S1024_S1024x1_0 bcast_S1024x1_S1024x8_0_1 (res_main_v92 V0) rfl (res_main_v94 V0) rfl).trans
    (congrArg (normedArr d8) (v88_eq V0))

end Cert.Nnue.Ref

end
-- ==== Proof.RefValue.lean ====
/-
  The reference's result is the specification.

  The result is the product of the rectified third normalised array with the transpose of the last weight row; with
  the stages before it read at the specification this is the specification's tail of the two first-layer arrays,
  which is the whole network G of the five arguments.
-/
import proofs.«167364_g6923487281305_cont_9to1_m_76_12_alg».proof.Proof.Gen.ReferenceIdeal.Run
import proofs.«167364_g6923487281305_cont_9to1_m_76_12_alg».proof.Proof.Spec
import proofs.«167364_g6923487281305_cont_9to1_m_76_12_alg».proof.Proof.RefOps
import proofs.«167364_g6923487281305_cont_9to1_m_76_12_alg».proof.Proof.RefBlock
import proofs.«167364_g6923487281305_cont_9to1_m_76_12_alg».proof.Proof.RefStages

open scoped BigOperators

noncomputable section

namespace Cert.Nnue.Ref

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The reference's result term, over any valuation of the arguments, is the specification G of the five arguments. -/
theorem result_eq (V0 : Valuation τ sig (Elt Ideal)) :
    Host.dotGeneral (F := Ideal) (φ₂ := .f32) dot_S1024x8_S8x1_S1024x1_1_0_0_1_n_n none (maximumf (mulf (broadcastInDim S1024x8 ![] bcast_S_S1024x8 (constant (F := Ideal) S_ .f32 0x3D4CCCCD#32)) (res_main_v104 (F := Ideal) V0)) (res_main_v104 (F := Ideal) V0)) (transpose S8x1 [1, 0] (V0 (Proc.devRef .tc main_arg4)) transposes_S1x8_S8x1_1_0)
      = Cert.Nnue.G (V0 (Proc.devRef .tc main_arg0)) (V0 (Proc.devRef .tc main_arg1)) (V0 (Proc.devRef .tc main_arg2))
          (V0 (Proc.devRef .tc main_arg3)) (V0 (Proc.devRef .tc main_arg4)) := by
  funext j
  obtain ⟨r, c, rfl⟩ : ∃ (r : Fin 1024) (c : Fin 1), j = ix2 r c := ⟨j 0, j 1, eq_ix2 j⟩
  rw [v104_eq V0, rect_normed d8 _ bcast_S_S1024x8]
  exact dot_transposed_apply _ rfl _ (V0 (Proc.devRef .tc main_arg4)) transposes_S1x8_S8x1_1_0 r c

end Cert.Nnue.Ref

end
-- ==== Proof.lean ====
/- The proof of `Cert.Claim`.

   Both idealized programs compute, on the extended reals, one function `Cert.Nnue.G` of the five argument arrays
   (Proof/Spec.lean): two products of the halves of the first argument with the transposed second, each followed by row
   normalisation, a leaky rectifier and three further transposed products.  The kernel accumulates the two first-layer
   products over twenty grid points in blocks of 4096 columns and finishes the network at the last point
   (Proof/KPieces, KChunk, KAccum, KTotal, KEpi*, KFinal); the reference computes them as two whole products
   (Proof/Ref*).  The only law joining the two is the regrouping of a finite sum, which holds on the extended reals with no
   finiteness assumption, so the precondition is never opened.  The three frames are the generated runs; the ideal pass
   rewrote nothing, so the idealization claim is trivial. -/
import proofs.«167364_g6923487281305_cont_9to1_m_76_12_alg».proof.Defs
import proofs.«167364_g6923487281305_cont_9to1_m_76_12_alg».proof.Proof.Gen.Kernel
import proofs.«167364_g6923487281305_cont_9to1_m_76_12_alg».proof.Proof.Gen.Kernel.Frame
import proofs.«167364_g6923487281305_cont_9to1_m_76_12_alg».proof.Proof.Gen.KernelIdeal
import proofs.«167364_g6923487281305_cont_9to1_m_76_12_alg».proof.Proof.Gen.KernelIdeal.Frame
import proofs.«167364_g6923487281305_cont_9to1_m_76_12_alg».proof.Proof.Gen.ReferenceIdeal
import proofs.«167364_g6923487281305_cont_9to1_m_76_12_alg».proof.Proof.Gen.ReferenceIdeal.Run
import proofs.«167364_g6923487281305_cont_9to1_m_76_12_alg».proof.Proof.Gen.Pre_finite_inputs
import proofs.«167364_g6923487281305_cont_9to1_m_76_12_alg».proof.Proof.Imports
import proofs.«167364_g6923487281305_cont_9to1_m_76_12_alg».proof.Proof.KFinal
import proofs.«167364_g6923487281305_cont_9to1_m_76_12_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of argument arrays that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.Nnue.Ref.result_eq]
  have h := hagree c
  unfold Cert.KernelIdeal.Final.result
  beta_reduce
  rw [← h.1, ← h.2.1, ← h.2.2.1, ← h.2.2.2.1, ← h.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
